-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x64 : Shape := ⟨3, ![64, 4096, 64]⟩
abbrev S64x64 : Shape := ⟨2, ![64, 64]⟩
abbrev S64 : Shape := ⟨1, ![64]⟩
abbrev S_ : Shape := ⟨0, ![]⟩

class Facts : Prop where
  bcast_S_S64x4096x64 : S_.BroadcastsInDim S64x4096x64 (![] : Fin 0 → Fin S64x4096x64.rank)
  reducesTo_S64x4096x64_S_d0_1_2 : S64x4096x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64 .f32) (main_arg8 : FVec F S64x64 .f32) (main_arg9 : FVec F S64x64 .f32) (main_arg10 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S64x4096x64 .f32) (main_arg1 : FVec F S64x64 .f32) (main_arg2 : FVec F S64 .f32) (main_arg3 : FVec F S64x64 .f32) (main_arg4 : FVec F S64x64 .f32) (main_arg5 : FVec F S64 .f32) (main_arg6 : FVec F S64x64 .f32) (main_arg7 : FVec F S64 .f32) (main_arg8 : FVec F S64x64 .f32) (main_arg9 : FVec F S64x64 .f32) (main_arg10 : FVec F S64 .f32) : IVec S_ 1 :=
  let main_v0 : FVec F S64x4096x64 .f32 := Host.absf main_arg0
  let main_cst : FVec F S_ .f32 := constant S_ .f32 0x7F800000#32
  let main_v1 : FVec F S64x4096x64 .f32 := broadcastInDim S64x4096x64 ![] bcast_S_S64x4096x64 main_cst
  let main_v2 : IVec S64x4096x64 1 := cmpf .olt main_v0 main_v1
  let main_c : IVec S_ 1 := constantI S_ 1 1#1
  let main_v3 : IVec S_ 1 := (fun x v => Host.reduce IntOp.andi x v reducesTo_S64x4096x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S64x4096x64 : Shape := ⟨3, ![64, 4096, 64]⟩
abbrev S64x64 : Shape := ⟨2, ![64, 64]⟩
abbrev S64 : Shape := ⟨1, ![64]⟩
abbrev S64x2048x128 : Shape := ⟨3, ![64, 2048, 128]⟩
abbrev S_ : Shape := ⟨0, ![]⟩
abbrev S64x128 : Shape := ⟨2, ![64, 128]⟩
abbrev S128x128 : Shape := ⟨2, ![128, 128]⟩
abbrev S128 : Shape := ⟨1, ![128]⟩
abbrev S4x2048x128 : Shape := ⟨3, ![4, 2048, 128]⟩
abbrev S2048x128 : Shape := ⟨2, ![2048, 128]⟩
abbrev S1x2048x128 : Shape := ⟨3, ![1, 2048, 128]⟩
abbrev S1x128 : Shape := ⟨2, ![1, 128]⟩

abbrev nBuf : Space → Nat
  | .hbm => 48
  | .vmem => 14
  | .smem => 0
  | _ => 0

abbrev bufTy : (tb : Table) → Fin (tcTables nBuf tb) → BufTy
  | .hbm, ⟨0, _⟩ => ⟨S64x4096x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x2048x128, .f32⟩
  | .hbm, ⟨12, _⟩ => ⟨S_, .f32⟩
  | .hbm, ⟨13, _⟩ => ⟨S64x64, .f32⟩
  | .hbm, ⟨14, _⟩ => ⟨S64x128, .f32⟩
  | .hbm, ⟨15, _⟩ => ⟨S64x128, .f32⟩
  | .hbm, ⟨16, _⟩ => ⟨S128x128, .f32⟩
  | .hbm, ⟨17, _⟩ => ⟨S_, .f32⟩
  | .hbm, ⟨18, _⟩ => ⟨S64x64, .f32⟩
  | .hbm, ⟨19, _⟩ => ⟨S64x128, .f32⟩
  | .hbm, ⟨20, _⟩ => ⟨S64x128, .f32⟩
  | .hbm, ⟨21, _⟩ => ⟨S128x128, .f32⟩
  | .hbm, ⟨22, _⟩ => ⟨S_, .f32⟩
  | .hbm, ⟨23, _⟩ => ⟨S64x64, .f32⟩
  | .hbm, ⟨24, _⟩ => ⟨S64x128, .f32⟩
  | .hbm, ⟨25, _⟩ => ⟨S64x128, .f32⟩
  | .hbm, ⟨26, _⟩ => ⟨S128x128, .f32⟩
  | .hbm, ⟨27, _⟩ => ⟨S_, .f32⟩
  | .hbm, ⟨28, _⟩ => ⟨S64x64, .f32⟩
  | .hbm, ⟨29, _⟩ => ⟨S64x128, .f32⟩
  | .hbm, ⟨30, _⟩ => ⟨S64x128, .f32⟩
  | .hbm, ⟨31, _⟩ => ⟨S128x128, .f32⟩
  | .hbm, ⟨32, _⟩ => ⟨S_, .f32⟩
  | .hbm, ⟨33, _⟩ => ⟨S64x64, .f32⟩
  | .hbm, ⟨34, _⟩ => ⟨S64x128, .f32⟩
  | .hbm, ⟨35, _⟩ => ⟨S64x128, .f32⟩
  | .hbm, ⟨36, _⟩ => ⟨S128x128, .f32⟩
  | .hbm, ⟨37, _⟩ => ⟨S_, .f32⟩
  | .hbm, ⟨38, _⟩ => ⟨S64x64, .f32⟩
  | .hbm, ⟨39, _⟩ => ⟨S64x128, .f32⟩
  | .hbm, ⟨40, _⟩ => ⟨S64x128, .f32⟩
  | .hbm, ⟨41, _⟩ => ⟨S128x128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S64x2048x128, .f32⟩
  | .hbm, ⟨47, _⟩ => ⟨S64x4096x64, .f32⟩
  | .local _ .vmem, ⟨0, _⟩ => ⟨S4x2048x128, .f32⟩
  | .local _ .vmem, ⟨1, _⟩ => ⟨S4x2048x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x128, .f32⟩
  | .local _ .vmem, ⟨10, _⟩ => ⟨S128x128, .f32⟩
  | .local _ .vmem, ⟨11, _⟩ => ⟨S128, .f32⟩
  | .local _ .vmem, ⟨12, _⟩ => ⟨S4x2048x128, .f32⟩
  | .local _ .vmem, ⟨13, _⟩ => ⟨S4x2048x128, .f32⟩
  | _, _ => ⟨S64x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_15 : BitVec 32 := 0#32
  let c4_i32 : BitVec 32 := 4#32
  let v33 : BitVec 32 := Scalar.addi c0_i32_15 c4_i32
  let c1_i32 : BitVec 32 := 1#32
  ⟨c0_i32_15, v33, c1_i32⟩
def k0_off1 (k0_t1 : Fin k0_t1_loop.trips) : Fin 3 → Nat :=
  let c0_i32_15 : BitVec 32 := 0#32
  let c1_i32 : BitVec 32 := 1#32
  let arg13 : BitVec 32 := Scf.iv c0_i32_15 c1_i32 k0_t1
  let v34 : Index := Scalar.indexCast arg13
  let c0_17 : Index := 0#32
  let c0_18 : Index := 0#32
  ![v34.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S64x4096x64_S64x2048x128 : S64x4096x64.ShapeCasts S64x2048x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  iota_S2048x128_d1_w32 : S2048x128.Iotas .tc 32 [1]
  iota_S2048x128_d0_w32 : S2048x128.Iotas .tc 32 [0]
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  shapeCasts_S128_S128 : S128.ShapeCasts S128
  h_S1x2048x128 : 0 < S1x2048x128.numel
  shapeCasts_S1x2048x128_S2048x128 : S1x2048x128.ShapeCasts S2048x128
  shapeCasts_S128_S1x128 : S128.ShapeCasts S1x128
  broadcasts_S1x128_S2048x128 : S1x128.Broadcasts S2048x128
  rotates_S2048x128_d1 : S2048x128.Rotates 1 none
  rotates_S2048x128_d0 : S2048x128.Rotates 0 none
  shapeCasts_S2048x128_S1x2048x128 : S2048x128.ShapeCasts S1x2048x128
  shapeCasts_S64x2048x128_S64x4096x64 : S64x2048x128.ShapeCasts S64x4096x64
  dot_S2048x128_S128x128_S2048x128_1_0_0_1_n_n_wf : DotDims.WF S2048x128 S128x128 S2048x128 [1] [0] [0] [1] [] []
  hrank0 : 0 < grid0.rank
  k0_t1_ok : k0_t1_loop.OK
  k0_off1_inb : ∀ k0_t1 : Fin k0_t1_loop.trips, ∀ a, (k0_off1 k0_t1) a + S1x2048x128.size a ≤ S4x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x128.size a ≤ S64x2048x128.size a
  hwx0_0 : ∀ i : grid0.Coords, EltTy.bits .f32 = 32 ∨ (Rect.block (s := S64x2048x128) S4x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x2048x128.size a ≤ S64x2048x128.size a
  hwx0_11 : ∀ i : grid0.Coords, EltTy.bits .f32 = 32 ∨ (Rect.block (s := S64x2048x128) S4x2048x128.size (cc0_transform_11 i) (hinb0_11 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S4x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S4x2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x4096x64 : Shape := ⟨3, ![64, 4096, 64]⟩
abbrev S64x64 : Shape := ⟨2, ![64, 64]⟩
abbrev S64 : Shape := ⟨1, ![64]⟩
abbrev S64x4095x64 : Shape := ⟨3, ![64, 4095, 64]⟩
abbrev S1x1x64 : Shape := ⟨3, ![1, 1, 64]⟩
abbrev S_ : Shape := ⟨0, ![]⟩
abbrev S64x1x64 : Shape := ⟨3, ![64, 1, 64]⟩

abbrev nBuf : Space → Nat
  | .hbm => 47
  | .vmem => 0
  | .smem => 0
  | _ => 0

abbrev bufTy : (tb : Table) → Fin (tcTables nBuf tb) → BufTy
  | .hbm, ⟨0, _⟩ => ⟨S64x4096x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x4095x64, .f32⟩
  | .hbm, ⟨12, _⟩ => ⟨S64x4095x64, .f32⟩
  | .hbm, ⟨13, _⟩ => ⟨S1x1x64, .f32⟩
  | .hbm, ⟨14, _⟩ => ⟨S64x4095x64, .f32⟩
  | .hbm, ⟨15, _⟩ => ⟨S64x4095x64, .f32⟩
  | .hbm, ⟨16, _⟩ => ⟨S_, .f32⟩
  | .hbm, ⟨17, _⟩ => ⟨S64x4095x64, .f32⟩
  | .hbm, ⟨18, _⟩ => ⟨S64x4095x64, .f32⟩
  | .hbm, ⟨19, _⟩ => ⟨S64x1x64, .f32⟩
  | .hbm, ⟨20, _⟩ => ⟨S_, .f32⟩
  | .hbm, ⟨21, _⟩ => ⟨S64x1x64, .f32⟩
  | .hbm, ⟨22, _⟩ => ⟨S64x4096x64, .f32⟩
  | .hbm, ⟨23, _⟩ => ⟨S64x4096x64, .f32⟩
  | .hbm, ⟨24, _⟩ => ⟨S64x4096x64, .f32⟩
  | .hbm, ⟨25, _⟩ => ⟨S64x4096x64, .f32⟩
  | .hbm, ⟨26, _⟩ => ⟨S1x1x64, .f32⟩
  | .hbm, ⟨27, _⟩ => ⟨S64x4096x64, .f32⟩
  | .hbm, ⟨28, _⟩ => ⟨S64x4096x64, .f32⟩
  | .hbm, ⟨29, _⟩ => ⟨S64x4095x64, .f32⟩
  | .hbm, ⟨30, _⟩ => ⟨S64x4095x64, .f32⟩
  | .hbm, ⟨31, _⟩ => ⟨S1x1x64, .f32⟩
  | .hbm, ⟨32, _⟩ => ⟨S64x4095x64, .f32⟩
  | .hbm, ⟨33, _⟩ => ⟨S64x4095x64, .f32⟩
  | .hbm, ⟨34, _⟩ => ⟨S_, .f32⟩
  | .hbm, ⟨35, _⟩ => ⟨S64x4095x64, .f32⟩
  | .hbm, ⟨36, _⟩ => ⟨S64x4095x64, .f32⟩
  | .hbm, ⟨37, _⟩ => ⟨S64x1x64, .f32⟩
  | .hbm, ⟨38, _⟩ => ⟨S_, .f32⟩
  | .hbm, ⟨39, _⟩ => ⟨S64x1x64, .f32⟩
  | .hbm, ⟨40, _⟩ => ⟨S64x4096x64, .f32⟩
  | .hbm, ⟨41, _⟩ => ⟨S64x4096x64, .f32⟩
  | .hbm, ⟨42, _⟩ => ⟨S64x4096x64, .f32⟩
  | .hbm, ⟨43, _⟩ => ⟨S64x4096x64, .f32⟩
  | .hbm, ⟨44, _⟩ => ⟨S1x1x64, .f32⟩
  | .hbm, ⟨45, _⟩ => ⟨S64x4096x64, .f32⟩
  | .hbm, ⟨46, _⟩ => ⟨S64x4096x64, .f32⟩
  | _, _ => ⟨S64x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  slices_S64x4096x64_S64x4095x64_0_0_0 : S64x4096x64.Slices ![0, 0, 0] S64x4095x64
  bcast_S64_S1x1x64_2 : S64.BroadcastsInDim S1x1x64 (![2] : Fin 1 → Fin S1x1x64.rank)
  bcast_S1x1x64_S64x4095x64_0_1_2 : S1x1x64.BroadcastsInDim S64x4095x64 (![0, 1, 2] : Fin 3 → Fin S64x4095x64.rank)
  bcast_S_S64x4095x64 : S_.BroadcastsInDim S64x4095x64 (![] : Fin 0 → Fin S64x4095x64.rank)
  slices_S64x4095x64_S64x1x64_0_0_0 : S64x4095x64.Slices ![0, 0, 0] S64x1x64
  bcast_S_S64x1x64 : S_.BroadcastsInDim S64x1x64 (![] : Fin 0 → Fin S64x1x64.rank)
  concatenates_S64x1x64_S64x4095x64_S64x4096x64_d1 : Shape.Concatenates [S64x1x64, S64x4095x64] S64x4096x64 1
  bcast_S1x1x64_S64x4096x64_0_1_2 : S1x1x64.BroadcastsInDim S64x4096x64 (![0, 1, 2] : Fin 3 → Fin S64x4096x64.rank)
  dot_S64x4095x64_S64x64_S64x4095x64_2_0_01_1_n_n_wf : DotDims.WF S64x4095x64 S64x64 S64x4095x64 [2] [0] [0, 1] [1] [] []
  dot_S64x4096x64_S64x64_S64x4096x64_2_0_01_1_n_n_wf : DotDims.WF S64x4096x64 S64x64 S64x4096x64 [2] [0] [0, 1] [1] [] []

variable [Facts₀]

def dot_S64x4095x64_S64x64_S64x4095x64_2_0_01_1_n_n : DotDims S64x4095x64 S64x64 S64x4095x64 where
  lhsContracting := [2]
  rhsContracting := [0]
  lhsNonContracting := [0, 1]
  rhsNonContracting := [1]
  lhsBatch := []
  rhsBatch := []
  wf := dot_S64x4095x64_S64x64_S64x4095x64_2_0_01_1_n_n_wf
def dot_S64x4096x64_S64x64_S64x4096x64_2_0_01_1_n_n : DotDims S64x4096x64 S64x64 S64x4096x64 where
  lhsContracting := [2]
  rhsContracting := [0]
  lhsNonContracting := [0, 1]
  rhsNonContracting := [1]
  lhsBatch := []
  rhsBatch := []
  wf := dot_S64x4096x64_S64x64_S64x4096x64_2_0_01_1_n_n_wf

class Facts : Prop extends Facts₀ where

variable [Facts]
-- ==== Proof.SageSpec.lean ====
/-
  The pooled chain aggregator as functions of whole arrays, index by index, on the extended reals.

  A sample is a chain of 4096 nodes with 64 features each; node n's only in-neighbour is node n - 1, and node 0 has
  none. One layer sends every node through a linear map, takes the neighbour's message
  max (x[n-1] · Wp + bp, 0) (zero for node 0), and returns x[n] · Ws + message · Wn + b. The whole map is two layers.

  The same layer is also written over PACKED rows: row m of a [2048, 128] array holds node 2m in lanes 0..63 and
  node 2m + 1 in lanes 64..127, every weight W is replaced by the block-diagonal matrix diag (W, W) and every
  bias b by (b, b); the neighbour's message is then found by swapping the two halves of each row and taking the
  low half from the row above.
-/
import Idealize.ShloMosaic.PureOps.Ideal
import Idealize.ShloMosaic.Lib.ValueIdx

noncomputable section

namespace Cert.SageSpec

open Idealize.ShloMosaic Idealize.ShloMosaic.ValueIdx

/-- One sample: 4096 nodes by 64 features. -/
abbrev Chain := (⟨2, ![4096, 64]⟩ : Shape).Idx → EReal
/-- A 64 by 64 weight. -/
abbrev Mat := (⟨2, ![64, 64]⟩ : Shape).Idx → EReal
/-- A bias of 64 entries. -/
abbrev Bias := (⟨1, ![64]⟩ : Shape).Idx → EReal
/-- The batch: 64 samples. -/
abbrev Batch := (⟨3, ![64, 4096, 64]⟩ : Shape).Idx → EReal

/-- Node n through the weight W: the sum over f of x[n, f] · W[f, g]. -/
def lin (x : Chain) (W : Mat) (n : Fin 4096) (g : Fin 64) : EReal :=
  ∑ f : Fin 64, x (ix2 n f) * W (ix2 f g)

/-- The message node n sends to its successor: max (x[n] · Wp + bp, 0). -/
def msg (x : Chain) (Wp : Mat) (bp : Bias) (n : Fin 4096) (g : Fin 64) : EReal :=
  max (lin x Wp n g + bp (ix1 g)) 0

/-- What node n pools from its in-neighbours: node n - 1's message, and zero for node 0, which has none. -/
def pooled (x : Chain) (Wp : Mat) (bp : Bias) (n : Fin 4096) (g : Fin 64) : EReal :=
  if n.val = 0 then 0 else msg x Wp bp ⟨n.val - 1, by have := n.isLt; omega⟩ g

/-- One layer on one sample: x[n] · Ws + pooled[n] · Wn + b. -/
def layer (x : Chain) (Wp : Mat) (bp : Bias) (Ws Wn : Mat) (b : Bias) : Chain := fun j =>
  (lin x Ws (j 0) (j 1) + ∑ f : Fin 64, pooled x Wp bp (j 0) f * Wn (ix2 f (j 1))) + b (ix1 (j 1))

/-- Sample s of the batch. -/
def row (X : Batch) (s : Fin 64) : Chain := fun j => X (ix3 s (j 0) (j 1))

/-- One layer on every sample of the batch. -/
def layerB (X : Batch) (Wp : Mat) (bp : Bias) (Ws Wn : Mat) (b : Bias) : Batch := fun i =>
  layer (row X (i 0)) Wp bp Ws Wn b (ix2 (i 1) (i 2))

/-- The whole map: two layers. -/
def sage2 (X : Batch) (Wp1 : Mat) (bp1 : Bias) (Ws1 Wn1 : Mat) (b1 : Bias) (Wp2 : Mat) (bp2 : Bias) (Ws2 Wn2 : Mat)
    (b2 : Bias) : Batch :=
  layerB (layerB X Wp1 bp1 Ws1 Wn1 b1) Wp2 bp2 Ws2 Wn2 b2

/-- A sample of a layered batch is the layer of the sample. -/
theorem row_layerB (X : Batch) (Wp : Mat) (bp : Bias) (Ws Wn : Mat) (b : Bias) (s : Fin 64) :
    row (layerB X Wp bp Ws Wn b) s = layer (row X s) Wp bp Ws Wn b := by
  funext j
  exact congrArg (layer (row X s) Wp bp Ws Wn b) (eq_ix2 j).symm

/-! ## The same layer over packed rows -/

/-- One sample packed two nodes to a row: 2048 rows of 128 lanes. -/
abbrev Packed := (⟨2, ![2048, 128]⟩ : Shape).Idx → EReal
/-- A 128 by 128 weight. -/
abbrev Mat2 := (⟨2, ![128, 128]⟩ : Shape).Idx → EReal
/-- A bias of 128 entries. -/
abbrev Bias2 := (⟨1, ![128]⟩ : Shape).Idx → EReal

/-- Row m through the weight W: the sum over k of P[m, k] · W[k, l]. -/
def linP (P : Packed) (W : Mat2) (m : Fin 2048) (l : Fin 128) : EReal :=
  ∑ k : Fin 128, P (ix2 m k) * W (ix2 k l)

/-- The packed messages: max (P · Wp + bp, 0). -/
def msgP (P : Packed) (Wp : Mat2) (bp : Bias2) (m : Fin 2048) (l : Fin 128) : EReal :=
  max (linP P Wp m l + bp (ix1 l)) 0

/-- The packed pooled features: each row's two halves swapped (lane l reads lane l - 64 around the end), the low
    half taken from the row above (row m reads row m - 1 around the end), and the low half of row 0 zero. -/
def pooledP (P : Packed) (Wp : Mat2) (bp : Bias2) (m : Fin 2048) (l : Fin 128) : EReal :=
  if m.val = 0 ∧ l.val < 64 then 0
  else if l.val < 64 then
    msgP P Wp bp ⟨(m.val + 2048 - 1) % 2048, Nat.mod_lt _ (by decide)⟩ ⟨(l.val + 128 - 64) % 128, Nat.mod_lt _ (by decide)⟩
  else msgP P Wp bp m ⟨(l.val + 128 - 64) % 128, Nat.mod_lt _ (by decide)⟩

/-- One layer over packed rows. -/
def layerP (P : Packed) (Wp : Mat2) (bp : Bias2) (Ws Wn : Mat2) (b : Bias2) : Packed := fun j =>
  (linP P Ws (j 0) (j 1) + ∑ k : Fin 128, pooledP P Wp bp (j 0) k * Wn (ix2 k (j 1))) + b (ix1 (j 1))

/-- Node n of a packed sample: row n / 2, lanes (n % 2) · 64 onwards. -/
def unpack (P : Packed) : Chain := fun j =>
  P (ix2 ⟨(j 0).val / 2, by have := idx2_lt0 j; omega⟩ ⟨(j 0).val % 2 * 64 + (j 1).val, by have := idx2_lt1 j; omega⟩)

/-- The block-diagonal weight diag (W, W). -/
def blk (W : Mat) : Mat2 := fun j =>
  if (j 0).val / 64 = (j 1).val / 64 then
    W (ix2 ⟨(j 0).val % 64, Nat.mod_lt _ (by decide)⟩ ⟨(j 1).val % 64, Nat.mod_lt _ (by decide)⟩)
  else 0

/-- The doubled bias (b, b). -/
def tile (b : Bias) : Bias2 := fun j => b (ix1 ⟨(j 0).val % 64, Nat.mod_lt _ (by decide)⟩)

end Cert.SageSpec

end
-- ==== Proof.RefSage.lean ====
/-
  The reference program's result, as a function of its arguments, is the two-layer map of the specification.
-/
import proofs.«117775_j14946486190735_2_alg».proof.Proof.Gen.ReferenceIdeal.Read
import proofs.«117775_j14946486190735_2_alg».proof.Proof.SageSpec

noncomputable section

namespace Cert.RefSage

open Cert.ReferenceIdeal Cert.ReferenceIdeal.Gen Cert.ReferenceIdeal.Read Cert.SageSpec
open Idealize.ShloMosaic Idealize.ShloMosaic.ValueIdx

/-- Two rank-3 indices with the same three coordinates are the same index. -/
theorem ext3 {n0 n1 n2 : Nat} (i j : (⟨3, ![n0, n1, n2]⟩ : Shape).Idx) (h0 : (i 0).val = (j 0).val)
    (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

/-- Two rank-2 indices with the same two coordinates are the same index. -/
theorem ext2 {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

/-- Two rank-1 indices with the same coordinate are the same index. -/
theorem ext1 {n0 : Nat} (i j : (⟨1, ![n0]⟩ : Shape).Idx) (h0 : (i 0).val = (j 0).val) : i = j := by
  funext a
  match a with
  | ⟨0, _⟩ => exact Fin.ext h0

/-- The rectified stage, at sample s, node m < 4095, feature g: node m's message. -/
theorem msg_read (x0 : (⟨S64x4096x64, .f32⟩ : BufTy).Contents (Elt Ideal)) (x1 : (⟨S64x64, .f32⟩ : BufTy).Contents (Elt Ideal))
    (x2 : (⟨S64, .f32⟩ : BufTy).Contents (Elt Ideal)) (s : Fin 64) (m : Fin 4095) (g : Fin 64) :
    val_main_v5 (F := Ideal) x0 x1 x2 (ix3 s m g) = msg (row x0 s) x1 x2 ⟨m.val, by have := m.isLt; omega⟩ g := by
  rw [val_main_v5_apply, val_main_v4_apply, val_main_v1_apply, val_main_v3_apply, val_main_v2_apply,
    val_main_call0_v0_apply, val_main_call0_cst_apply]
  simp only [val_main_v0_apply]
  have e0 : ∀ k : Fin 64, idx_main_v0 (lidx_main_v1 (ix3 s m g) k)
      = ix3 s (⟨m.val, by have := m.isLt; omega⟩ : Fin 4096) k := fun k => ext3 _ _ rfl rfl rfl
  have e1 : ∀ k : Fin 64, ridx_main_v1 (ix3 s m g) k = ix2 k g := fun k => ext2 _ _ rfl rfl
  have e2 : idx_main_v2 (idx_main_v3 (ix3 s m g)) = ix1 g := ext1 _ _ rfl
  simp only [e0, e1, e2]
  show max ((∑ k : Fin 64, x0 (ix3 s ⟨m.val, _⟩ k) * x1 (ix2 k g)) + x2 (ix1 g)) (Ideal.ofBits .f32 0x00000000#32) = _
  rw [Ideal.ofBits_zero_f32]
  rfl

/-- The stage with a zero row put in front, at sample s, node n, feature g: what node n pools. -/
theorem pooled_read (x0 : (⟨S64x4096x64, .f32⟩ : BufTy).Contents (Elt Ideal)) (x1 : (⟨S64x64, .f32⟩ : BufTy).Contents (Elt Ideal))
    (x2 : (⟨S64, .f32⟩ : BufTy).Contents (Elt Ideal)) (s : Fin 64) (n : Fin 4096) (g : Fin 64) :
    val_main_v8 (F := Ideal) x0 x1 x2 (ix3 s n g) = pooled (row x0 s) x1 x2 n g := by
  unfold val_main_v8 pooled
  by_cases h : n.val = 0
  · -- node 0 falls in the zero piece
    rw [if_pos h, concatenate_pair_apply_left (t := S64x4096x64) (s₁ := S64x1x64) (s₂ := S64x4095x64) (1 : Fin 3) _ _ _ (ix3 s n g) rfl (ix3 s (0 : Fin 1) g) (fun b => by
      match b with
      | ⟨0, _⟩ => rfl
      | ⟨1, _⟩ => exact h.symm
      | ⟨2, _⟩ => rfl)]
    rw [val_main_v7_apply, val_main_cst_apply]
    exact Ideal.ofBits_zero_f32
  · -- node n ≥ 1 reads the rectified stage at node n - 1
    have hn := n.isLt
    rw [if_neg h, concatenate_pair_apply_right (t := S64x4096x64) (s₁ := S64x1x64) (s₂ := S64x4095x64) (1 : Fin 3) _ _ _ (ix3 s n g) rfl rfl
      (ix3 s (⟨n.val - 1, by omega⟩ : Fin 4095) g) (fun b hb => by
        match b with
        | ⟨0, _⟩ => rfl
        | ⟨1, _⟩ => exact absurd rfl hb
        | ⟨2, _⟩ => rfl) (by show n.val - 1 + 1 = n.val; omega)]
    exact msg_read x0 x1 x2 s ⟨n.val - 1, by omega⟩ g

/-- One layer of the reference, at sample s, node n, output feature o, is the specification's layer there. -/
theorem layer_read (x0 : (⟨S64x4096x64, .f32⟩ : BufTy).Contents (Elt Ideal)) (x1 : (⟨S64x64, .f32⟩ : BufTy).Contents (Elt Ideal))
    (x2 : (⟨S64, .f32⟩ : BufTy).Contents (Elt Ideal)) (x3 x4 : (⟨S64x64, .f32⟩ : BufTy).Contents (Elt Ideal))
    (x5 : (⟨S64, .f32⟩ : BufTy).Contents (Elt Ideal)) (s : Fin 64) (n : Fin 4096) (o : Fin 64) :
    val_main_v14 (F := Ideal) x0 x1 x2 x3 x4 x5 (ix3 s n o) = layerB x0 x1 x2 x3 x4 x5 (ix3 s n o) := by
  rw [val_main_v14_apply, val_main_v11_apply, val_main_v9_apply, val_main_v10_apply, val_main_v13_apply,
    val_main_v12_apply]
  have e0 : ∀ k : Fin 64, lidx_main_v9 (ix3 s n o) k = ix3 s n k := fun k => ext3 _ _ rfl rfl rfl
  have e1 : ∀ k : Fin 64, ridx_main_v9 (ix3 s n o) k = ix2 k o := fun k => ext2 _ _ rfl rfl
  have e2 : ∀ k : Fin 64, lidx_main_v10 (ix3 s n o) k = ix3 s n k := fun k => ext3 _ _ rfl rfl rfl
  have e3 : ∀ k : Fin 64, ridx_main_v10 (ix3 s n o) k = ix2 k o := fun k => ext2 _ _ rfl rfl
  have e4 : idx_main_v12 (idx_main_v13 (ix3 s n o)) = ix1 o := ext1 _ _ rfl
  simp only [e0, e1, e2, e3, e4, pooled_read]
  rfl

/-- One layer of the reference is the specification's layer on every sample. -/
theorem layer_eq (x0 : (⟨S64x4096x64, .f32⟩ : BufTy).Contents (Elt Ideal)) (x1 : (⟨S64x64, .f32⟩ : BufTy).Contents (Elt Ideal))
    (x2 : (⟨S64, .f32⟩ : BufTy).Contents (Elt Ideal)) (x3 x4 : (⟨S64x64, .f32⟩ : BufTy).Contents (Elt Ideal))
    (x5 : (⟨S64, .f32⟩ : BufTy).Contents (Elt Ideal)) :
    val_main_v14 (F := Ideal) x0 x1 x2 x3 x4 x5 = layerB x0 x1 x2 x3 x4 x5 := by
  funext i
  obtain ⟨s, n, o, rfl⟩ : ∃ s n o, i = ix3 s n o := ⟨i 0, i 1, i 2, eq_ix3 i⟩
  exact layer_read x0 x1 x2 x3 x4 x5 s n o

/-- The second layer's stages are the first layer's stages, taken of the first layer's result. -/
theorem second_layer (x0 : (⟨S64x4096x64, .f32⟩ : BufTy).Contents (Elt Ideal)) (x1 : (⟨S64x64, .f32⟩ : BufTy).Contents (Elt Ideal))
    (x2 : (⟨S64, .f32⟩ : BufTy).Contents (Elt Ideal)) (x3 x4 : (⟨S64x64, .f32⟩ : BufTy).Contents (Elt Ideal))
    (x5 : (⟨S64, .f32⟩ : BufTy).Contents (Elt Ideal)) (x6 : (⟨S64x64, .f32⟩ : BufTy).Contents (Elt Ideal)) (x7 : (⟨S64, .f32⟩ : BufTy).Contents (Elt Ideal))
    (x8 x9 : (⟨S64x64, .f32⟩ : BufTy).Contents (Elt Ideal)) (x10 : (⟨S64, .f32⟩ : BufTy).Contents (Elt Ideal)) :
    val_main_v29 (F := Ideal) x0 x1 x2 x3 x4 x5 x6 x7 x8 x9 x10
      = val_main_v14 (F := Ideal) (val_main_v14 (F := Ideal) x0 x1 x2 x3 x4 x5) x6 x7 x8 x9 x10 := rfl

/-- The reference's last stage is the specification's two layers of its arguments. -/
theorem ref_eq (x0 : (⟨S64x4096x64, .f32⟩ : BufTy).Contents (Elt Ideal)) (x1 : (⟨S64x64, .f32⟩ : BufTy).Contents (Elt Ideal)) (x2 : (⟨S64, .f32⟩ : BufTy).Contents (Elt Ideal))
    (x3 x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (x8 x9 : (⟨S64x64, .f32⟩ : BufTy).Contents (Elt Ideal)) (x10 : (⟨S64, .f32⟩ : BufTy).Contents (Elt Ideal)) :
    val_main_v29 (F := Ideal) x0 x1 x2 x3 x4 x5 x6 x7 x8 x9 x10 = sage2 x0 x1 x2 x3 x4 x5 x6 x7 x8 x9 x10 := by
  rw [second_layer, layer_eq x0 x1 x2 x3 x4 x5, layer_eq]
  rfl

end Cert.RefSage

end
-- ==== Proof.KernelRow.lean ====
/-
  What one trip of the kernel's row loop stores, as a function of the weights, the biases and the packed row it read;
  and, on the extended reals, that it is two packed layers of that row.
-/
import proofs.«117775_j14946486190735_2_alg».proof.Proof.Gen.KernelIdeal.Skeleton
import proofs.«117775_j14946486190735_2_alg».proof.Proof.SageSpec
import Idealize.ShloMosaic.Lib.ValueLayout
import Idealize.ShloMosaic.Lib.Pipeline.Value
import Idealize.ShloMosaic.Lib.KernelVsHost
import Idealize.ShloMosaic.PureOps.Ideal.Laws

noncomputable section

namespace Cert.KernelRow

open Cert.KernelIdeal Cert.KernelIdeal.Gen Cert.SageSpec
open Idealize.ShloMosaic Idealize.ShloMosaic.ValueIdx

variable {F : FTy → Type} [FloatOps F]

/-- The row a trip stores: the second layer's sum of its own product, its pooled product and its bias, over the first
    layer's output, as the body's named payloads compose them. The arguments are the ten weight and bias blocks in the
    order the call passes them, then the packed input row as loaded, [1, 2048, 128]. -/
def rowPay (x1 : Vec F S128x128 .f32) (x2 : Vec F S128 .f32) (x3 x4 : Vec F S128x128 .f32) (x5 : Vec F S128 .f32)
    (x6 : Vec F S128x128 .f32) (x7 : Vec F S128 .f32) (x8 x9 : Vec F S128x128 .f32) (x10 : Vec F S128 .f32)
    (xr : Vec F S1x2048x128 .f32) : FVec F S1x2048x128 .f32 :=
  k0_pay11 x9
    (k0_pay13 (iota .tc S2048x128 32 [1] iota_S2048x128_d1_w32) k0_pay1 (k0_pay2 x1) (k0_pay3 x3) (k0_pay4 x4) (k0_pay5 x6) (k0_pay7 x2) (k0_pay8 x5)
      (k0_pay9 x7) xr)
    (k0_pay14 (k0_pay10 x10))
    (k0_pay15 (iota .tc S2048x128 32 [1] iota_S2048x128_d1_w32) k0_pay1 (k0_pay2 x1) (k0_pay3 x3) (k0_pay4 x4) (k0_pay6 x8) (k0_pay7 x2) (k0_pay8 x5) xr)

/-- A lane number below 128, as a 32-bit word, is below 64 as a signed word exactly when the number is below 64. -/
theorem lane_lt_word (l : Nat) (hl : l < 128) :
    IntOp.cmpi .slt (BitVec.ofNat 32 l) 64#32 = if l < 64 then 1#1 else 0#1 := by
  have hi : (BitVec.ofNat 32 l).toInt = (l : Int) := by
    have ht : (BitVec.ofNat 32 l).toNat = l := by
      rw [BitVec.toNat_ofNat]; exact Nat.mod_eq_of_lt (by omega)
    rw [BitVec.toInt_eq_toNat_of_lt (by rw [ht]; omega), ht]
  have h64 : (64#32 : BitVec 32).toInt = 64 := by decide
  show BitVec.ofBool ((BitVec.ofNat 32 l).slt 64#32) = _
  by_cases h : l < 64
  · rw [if_pos h]
    have : (BitVec.ofNat 32 l).slt 64#32 = true := by
      rw [BitVec.slt_iff_toInt_lt, hi, h64]; omega
    rw [this]; rfl
  · rw [if_neg h]
    have : (BitVec.ofNat 32 l).slt 64#32 = false := by
      rw [← Bool.not_eq_true, BitVec.slt_iff_toInt_lt, hi, h64]; omega
    rw [this]; rfl

/-- A row number below 2048, as a 32-bit word, equals the zero word exactly when the number is zero. -/
theorem row_eq_word (m : Nat) (hm : m < 2048) :
    IntOp.cmpi .eq (BitVec.ofNat 32 m) 0#32 = if m = 0 then 1#1 else 0#1 := by
  show BitVec.ofBool (BitVec.ofNat 32 m == 0#32) = _
  by_cases h : m = 0
  · subst h; rfl
  · rw [if_neg h]
    have : (BitVec.ofNat 32 m == 0#32) = false := by
      rw [beq_eq_false_iff_ne]
      intro hc
      have := congrArg BitVec.toNat hc
      rw [BitVec.toNat_ofNat] at this
      simp at this
      omega
    rw [this]; rfl

/-! ## The matmul read at an index -/

/-- The left operand's row is the output's row. -/
theorem lhs_row (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl
/-- The left operand's lane is the contraction position. -/
theorem lhs_lane (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
/-- The right operand's row is the contraction position. -/
theorem rhs_row (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
/-- The right operand's column is the output's lane. -/
theorem rhs_col (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- On the extended reals a [2048, 128] by [128, 128] product into the zero accumulator, read at row m and lane l,
    is the sum over k of y[m, k] · W[k, l]. -/
theorem matmul_row {φ₁ φ₂ : FTy} (y : FVec Ideal S2048x128 φ₁) (W : FVec Ideal S128x128 φ₂) (m : Fin 2048) (l : Fin 128) :
    matmul (F := Ideal) dot_S2048x128_S128x128_S2048x128_1_0_0_1_n_n none y W (constant (F := Ideal) S2048x128 .f32 0x00000000#32) (ix2 m l)
      = ∑ k : Fin 128, y (ix2 m k) * W (ix2 k l) := by
  refine (Ideal.matmul_constant_zero_apply dot_S2048x128_S128x128_S2048x128_1_0_0_1_n_n none y W (ix2 m l)).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 m l) ((contrEquiv1 dot_S2048x128_S128x128_S2048x128_1_0_0_1_n_n 128 rfl rfl).symm k) = ix2 m k :=
    funext fun a => Fin.ext (by
      match a with
      | ⟨0, _⟩ => exact lhs_row _ _
      | ⟨1, _⟩ => exact (lhs_lane _ _).trans hk)
  have er : dot_S2048x128_S128x128_S2048x128_1_0_0_1_n_n.rhsIdx (ix2 m l) ((contrEquiv1 dot_S2048x128_S128x128_S2048x128_1_0_0_1_n_n 128 rfl rfl).symm k) = ix2 k l :=
    funext fun a => Fin.ext (by
      match a with
      | ⟨0, _⟩ => exact (rhs_row _ _).trans hk
      | ⟨1, _⟩ => exact rhs_col _ _)
  rw [el, er]

/-- A 128-entry bias viewed [1, 128] and repeated down the 2048 rows reads b[l] at every row. -/
theorem bias_row {α : Type} (b : S128.Idx → α) (m : Fin 2048) (l : Fin 128) :
    broadcastTo S2048x128 (shapeCast S1x128 b shapeCasts_S128_S1x128) broadcasts_S1x128_S2048x128 (ix2 m l)
      = b (ix1 l) :=
  (broadcastTo_1b_ab_apply _ broadcasts_S1x128_S2048x128 m l).trans
    (shapeCast_a_1a_apply b shapeCasts_S128_S1x128 (0 : Fin 1) l)

/-! ## The two rotations and the two masks read at an index -/

/-- A rotation along the lanes by 64 reads lane (l + 128 - 64) % 128 of the same row. -/
theorem rot_lane {α : Type} (z : S2048x128.Idx → α) (m : Fin 2048) (l : Fin 128) :
    dynamicRotate 1 64#32 none z rotates_S2048x128_d1 (ix2 m l)
      = z (ix2 m ⟨(l.val + 128 - 64) % 128, Nat.mod_lt _ (by decide)⟩) :=
  dynamicRotate_apply 1 64#32 z rotates_S2048x128_d1 (ix2 m l) _ (fun b => by
    match b with
    | ⟨0, _⟩ => rfl
    | ⟨1, _⟩ => rfl)

/-- A rotation along the rows by 1 reads row (m + 2048 - 1) % 2048 at the same lane. -/
theorem rot_row {α : Type} (z : S2048x128.Idx → α) (m : Fin 2048) (l : Fin 128) :
    dynamicRotate 0 1#32 none z rotates_S2048x128_d0 (ix2 m l)
      = z (ix2 ⟨(m.val + 2048 - 1) % 2048, Nat.mod_lt _ (by decide)⟩ l) :=
  dynamicRotate_apply 0 1#32 z rotates_S2048x128_d0 (ix2 m l) _ (fun b => by
    match b with
    | ⟨0, _⟩ => rfl
    | ⟨1, _⟩ => rfl)

/-- The lane mask: lane below 64. -/
theorem lane_mask (m : Fin 2048) (l : Fin 128) :
    cmpi .slt (iota .tc S2048x128 32 [1] iota_S2048x128_d1_w32) (broadcast S2048x128 64#32) (ix2 m l)
      = if l.val < 64 then 1#1 else 0#1 := by
  show IntOp.cmpi .slt (iota .tc S2048x128 32 [1] iota_S2048x128_d1_w32 (ix2 m l)) 64#32 = _
  rw [iota_single_apply .tc S2048x128 32 1 iota_S2048x128_d1_w32 (ix2 m l)]
  exact lane_lt_word l.val l.isLt

/-- The corner mask: row 0 and lane below 64. -/
theorem corner_mask (m : Fin 2048) (l : Fin 128) :
    k0_pay1 (ix2 m l) = if m.val = 0 ∧ l.val < 64 then 1#1 else 0#1 := by
  show IntOp.andi (IntOp.cmpi .eq (iota .tc S2048x128 32 [0] iota_S2048x128_d0_w32 (ix2 m l)) 0#32)
      (IntOp.cmpi .slt (iota .tc S2048x128 32 [1] iota_S2048x128_d1_w32 (ix2 m l)) 64#32) = _
  rw [iota_single_apply .tc S2048x128 32 0 iota_S2048x128_d0_w32 (ix2 m l),
    iota_single_apply .tc S2048x128 32 1 iota_S2048x128_d1_w32 (ix2 m l)]
  show IntOp.andi (IntOp.cmpi .eq (BitVec.ofNat 32 m.val) 0#32) (IntOp.cmpi .slt (BitVec.ofNat 32 l.val) 64#32) = _
  rw [row_eq_word m.val m.isLt, lane_lt_word l.val l.isLt]
  by_cases hm : m.val = 0
  · by_cases hl : l.val < 64
    · rw [if_pos hm, if_pos hl, if_pos ⟨hm, hl⟩]; rfl
    · rw [if_pos hm, if_neg hl, if_neg (fun h => hl h.2)]; rfl
  · by_cases hl : l.val < 64
    · rw [if_neg hm, if_pos hl, if_neg (fun h => hm h.1)]; rfl
    · rw [if_neg hm, if_neg hl, if_neg (fun h => hm h.1)]; rfl

/-! ## One layer as the body composes it -/

/-- The messages: max (y · Wp + bp, 0). -/
def msgOps (y : FVec F S2048x128 .bf16) (Wp : FVec F S128x128 .bf16) (bp : FVec F S128 .f32) : FVec F S2048x128 .f32 :=
  maximumf
    (addf (matmul dot_S2048x128_S128x128_S2048x128_1_0_0_1_n_n none y Wp (constant (F := F) S2048x128 .f32 0x00000000#32))
      (broadcastTo S2048x128 (shapeCast S1x128 bp shapeCasts_S128_S1x128) broadcasts_S1x128_S2048x128))
    (broadcast S2048x128 (Scalar.ofBits .f32 0x00000000#32 : F .f32))

/-- The pooled features from the messages z: the halves of each row swapped, the low half taken from the row above,
    and zero where the corner mask is set. -/
def pooledOps (v0 : IVec S2048x128 32) (v6 : IVec S2048x128 1) (z : FVec F S2048x128 .f32) : FVec F S2048x128 .f32 :=
  select v6 (broadcast S2048x128 (Scalar.ofBits .f32 0x00000000#32 : F .f32))
    (select (cmpi .slt v0 (broadcast S2048x128 64#32))
      (dynamicRotate 0 1#32 none (dynamicRotate 1 64#32 none z rotates_S2048x128_d1) rotates_S2048x128_d0)
      (dynamicRotate 1 64#32 none z rotates_S2048x128_d1))

/-- One layer: (y · Ws + pooled · Wn) + b. -/
def layerOps (v0 : IVec S2048x128 32) (v6 : IVec S2048x128 1) (y : FVec F S2048x128 .bf16)
    (Wp Ws Wn : FVec F S128x128 .bf16) (bp b : FVec F S128 .f32) : FVec F S2048x128 .f32 :=
  addf
    (addf (matmul dot_S2048x128_S128x128_S2048x128_1_0_0_1_n_n none y Ws (constant (F := F) S2048x128 .f32 0x00000000#32))
      (matmul dot_S2048x128_S128x128_S2048x128_1_0_0_1_n_n none (truncf .bf16 (pooledOps v0 v6 (msgOps y Wp bp)) bitsLt_bf16_f32) Wn
        (constant (F := F) S2048x128 .f32 0x00000000#32)))
    (broadcastTo S2048x128 (shapeCast S1x128 b shapeCasts_S128_S1x128) broadcasts_S1x128_S2048x128)

/-- The first layer's payload is one layer of the loaded row, rounded to bf16. -/
theorem pay12_eq (v0 : IVec S2048x128 32) (v6 : IVec S2048x128 1) (v9 v12 v15 : FVec F S128x128 .bf16)
    (v26 v28 : FVec F S128 .f32) (v35 : Vec F S1x2048x128 .f32) :
    k0_pay12 v0 v6 v9 v12 v15 v26 v28 v35
      = truncf .bf16 (layerOps v0 v6
          (truncf .bf16 (shapeCast S2048x128 v35 shapeCasts_S1x2048x128_S2048x128) bitsLt_bf16_f32)
          v9 v12 v15 v26 v28) bitsLt_bf16_f32 := rfl

/-- The stored row is one layer of the first layer's payload, viewed [1, 2048, 128]. -/
theorem rowPay_eq (x1 : Vec F S128x128 .f32) (x2 : Vec F S128 .f32) (x3 x4 : Vec F S128x128 .f32) (x5 : Vec F S128 .f32)
    (x6 : Vec F S128x128 .f32) (x7 : Vec F S128 .f32) (x8 x9 : Vec F S128x128 .f32) (x10 : Vec F S128 .f32)
    (xr : Vec F S1x2048x128 .f32) :
    rowPay x1 x2 x3 x4 x5 x6 x7 x8 x9 x10 xr
      = shapeCast S1x2048x128
          (layerOps (iota .tc S2048x128 32 [1] iota_S2048x128_d1_w32) k0_pay1
            (k0_pay12 (iota .tc S2048x128 32 [1] iota_S2048x128_d1_w32) k0_pay1 (k0_pay2 x1) (k0_pay3 x3) (k0_pay4 x4)
              (k0_pay7 x2) (k0_pay8 x5) xr)
            (k0_pay5 x6) (k0_pay6 x8) (k0_pay2 x9) (k0_pay9 x7) (k0_pay10 x10))
          shapeCasts_S2048x128_S1x2048x128 := rfl

/-! ## One layer read at an index, on the extended reals -/

/-- The messages at row m, lane l. -/
theorem msgOps_apply (y : FVec Ideal S2048x128 .bf16) (Wp : FVec Ideal S128x128 .bf16) (bp : FVec Ideal S128 .f32)
    (m : Fin 2048) (l : Fin 128) : msgOps (F := Ideal) y Wp bp (ix2 m l) = msgP y Wp bp m l := by
  show max (matmul (F := Ideal) dot_S2048x128_S128x128_S2048x128_1_0_0_1_n_n none y Wp (constant (F := Ideal) S2048x128 .f32 0x00000000#32) (ix2 m l)
        + broadcastTo S2048x128 (shapeCast S1x128 bp shapeCasts_S128_S1x128) broadcasts_S1x128_S2048x128 (ix2 m l))
      (Ideal.ofBits .f32 0x00000000#32) = max (linP y Wp m l + bp (ix1 l)) 0
  rw [matmul_row y Wp m l, bias_row bp m l, Ideal.ofBits_zero_f32]
  rfl

/-- The pooled features at row m, lane l, from the messages z: zero in the corner, the row above's swapped lane in the
    low half, the same row's swapped lane in the high half. -/
theorem pooledOps_apply (z : FVec Ideal S2048x128 .f32) (m : Fin 2048) (l : Fin 128) :
    pooledOps (F := Ideal) (iota .tc S2048x128 32 [1] iota_S2048x128_d1_w32) k0_pay1 z (ix2 m l)
      = if m.val = 0 ∧ l.val < 64 then 0
        else if l.val < 64 then
          z (ix2 ⟨(m.val + 2048 - 1) % 2048, Nat.mod_lt _ (by decide)⟩ ⟨(l.val + 128 - 64) % 128, Nat.mod_lt _ (by decide)⟩)
        else z (ix2 m ⟨(l.val + 128 - 64) % 128, Nat.mod_lt _ (by decide)⟩) := by
  show Scalar.select (k0_pay1 (ix2 m l)) (Ideal.ofBits .f32 0x00000000#32)
      (Scalar.select (cmpi .slt (iota .tc S2048x128 32 [1] iota_S2048x128_d1_w32) (broadcast S2048x128 64#32) (ix2 m l))
        (dynamicRotate 0 1#32 none (dynamicRotate 1 64#32 none z rotates_S2048x128_d1) rotates_S2048x128_d0 (ix2 m l))
        (dynamicRotate 1 64#32 none z rotates_S2048x128_d1 (ix2 m l))) = _
  rw [corner_mask m l, lane_mask m l, rot_row (dynamicRotate 1 64#32 none z rotates_S2048x128_d1) m l,
    rot_lane z ⟨(m.val + 2048 - 1) % 2048, Nat.mod_lt _ (by decide)⟩ l, rot_lane z m l, Ideal.ofBits_zero_f32]
  by_cases hc : m.val = 0 ∧ l.val < 64
  · rw [if_pos hc, if_pos hc, select_one]
  · rw [if_neg hc, if_neg hc, select_zero]
    by_cases hl : l.val < 64
    · rw [if_pos hl, if_pos hl, select_one]
    · rw [if_neg hl, if_neg hl, select_zero]

/-- One layer as the body composes it, at row m and lane l, is the packed layer of the specification. -/
theorem layerOps_apply (y : FVec Ideal S2048x128 .bf16) (Wp Ws Wn : FVec Ideal S128x128 .bf16)
    (bp b : FVec Ideal S128 .f32) (m : Fin 2048) (l : Fin 128) :
    layerOps (F := Ideal) (iota .tc S2048x128 32 [1] iota_S2048x128_d1_w32) k0_pay1 y Wp Ws Wn bp b (ix2 m l) = layerP y Wp bp Ws Wn b (ix2 m l) := by
  show (matmul (F := Ideal) dot_S2048x128_S128x128_S2048x128_1_0_0_1_n_n none y Ws (constant (F := Ideal) S2048x128 .f32 0x00000000#32) (ix2 m l)
        + matmul (F := Ideal) dot_S2048x128_S128x128_S2048x128_1_0_0_1_n_n none
            (truncf .bf16 (pooledOps (F := Ideal) (iota .tc S2048x128 32 [1] iota_S2048x128_d1_w32) k0_pay1 (msgOps (F := Ideal) y Wp bp)) bitsLt_bf16_f32) Wn (constant (F := Ideal) S2048x128 .f32 0x00000000#32)
            (ix2 m l))
        + broadcastTo S2048x128 (shapeCast S1x128 b shapeCasts_S128_S1x128) broadcasts_S1x128_S2048x128 (ix2 m l)
      = (linP y Ws m l + ∑ k : Fin 128, pooledP y Wp bp m k * Wn (ix2 k l)) + b (ix1 l)
  rw [matmul_row y Ws m l,
    matmul_row (truncf .bf16 (pooledOps (F := Ideal) (iota .tc S2048x128 32 [1] iota_S2048x128_d1_w32) k0_pay1 (msgOps (F := Ideal) y Wp bp)) bitsLt_bf16_f32) Wn m l,
    bias_row b m l]
  have hp : ∀ k : Fin 128,
      (truncf .bf16 (pooledOps (F := Ideal) (iota .tc S2048x128 32 [1] iota_S2048x128_d1_w32) k0_pay1 (msgOps (F := Ideal) y Wp bp)) bitsLt_bf16_f32
        : FVec Ideal S2048x128 .bf16) (ix2 m k) = pooledP y Wp bp m k := fun k => by
    show pooledOps (F := Ideal) (iota .tc S2048x128 32 [1] iota_S2048x128_d1_w32) k0_pay1 (msgOps (F := Ideal) y Wp bp) (ix2 m k) = _
    rw [pooledOps_apply (msgOps (F := Ideal) y Wp bp) m k, msgOps_apply, msgOps_apply]
    rfl
  have hs : (∑ k : Fin 128,
        (truncf .bf16 (pooledOps (F := Ideal) (iota .tc S2048x128 32 [1] iota_S2048x128_d1_w32) k0_pay1 (msgOps (F := Ideal) y Wp bp)) bitsLt_bf16_f32
          : FVec Ideal S2048x128 .bf16) (ix2 m k) * Wn (ix2 k l))
      = ∑ k : Fin 128, pooledP y Wp bp m k * Wn (ix2 k l) :=
    Finset.sum_congr rfl (fun k _ => by rw [hp k])
  rw [hs]
  rfl

/-! ## The stored row -/

/-- The packed layer only depends on the values of its arguments. -/
theorem layerP_congr {P P' : Packed} {Wp Wp' : Mat2} {bp bp' : Bias2} {Ws Ws' Wn Wn' : Mat2} {b b' : Bias2}
    (hP : P = P') (hWp : Wp = Wp') (hbp : bp = bp') (hWs : Ws = Ws') (hWn : Wn = Wn') (hb : b = b')
    (j : (⟨2, ![2048, 128]⟩ : Shape).Idx) :
    layerP P Wp bp Ws Wn b j = layerP P' Wp' bp' Ws' Wn' b' j := by
  subst hP; subst hWp; subst hbp; subst hWs; subst hWn; subst hb; rfl

/-! On the extended reals a weight's cast to its own shape followed by the rounding to bf16 is the weight, and a
    bias's cast to its own shape is the bias. -/
theorem pay2_id (x : Vec Ideal S128x128 .f32) : (k0_pay2 (F := Ideal) x : FVec Ideal S128x128 .bf16) = x :=
  shapeCast_self x shapeCasts_S128x128_S128x128
theorem pay3_id (x : Vec Ideal S128x128 .f32) : (k0_pay3 (F := Ideal) x : FVec Ideal S128x128 .bf16) = x :=
  shapeCast_self x shapeCasts_S128x128_S128x128
theorem pay4_id (x : Vec Ideal S128x128 .f32) : (k0_pay4 (F := Ideal) x : FVec Ideal S128x128 .bf16) = x :=
  shapeCast_self x shapeCasts_S128x128_S128x128
theorem pay5_id (x : Vec Ideal S128x128 .f32) : (k0_pay5 (F := Ideal) x : FVec Ideal S128x128 .bf16) = x :=
  shapeCast_self x shapeCasts_S128x128_S128x128
theorem pay6_id (x : Vec Ideal S128x128 .f32) : (k0_pay6 (F := Ideal) x : FVec Ideal S128x128 .bf16) = x :=
  shapeCast_self x shapeCasts_S128x128_S128x128
theorem pay7_id (x : Vec Ideal S128 .f32) : (k0_pay7 (F := Ideal) x : FVec Ideal S128 .f32) = x :=
  shapeCast_self x shapeCasts_S128_S128
theorem pay8_id (x : Vec Ideal S128 .f32) : (k0_pay8 (F := Ideal) x : FVec Ideal S128 .f32) = x :=
  shapeCast_self x shapeCasts_S128_S128
theorem pay9_id (x : Vec Ideal S128 .f32) : (k0_pay9 (F := Ideal) x : FVec Ideal S128 .f32) = x :=
  shapeCast_self x shapeCasts_S128_S128
theorem pay10_id (x : Vec Ideal S128 .f32) : (k0_pay10 (F := Ideal) x : FVec Ideal S128 .f32) = x :=
  shapeCast_self x shapeCasts_S128_S128

/-- The loaded [1, 2048, 128] row viewed [2048, 128] and rounded to bf16 is, on the extended reals, the packed sample
    it holds. -/
theorem row_id (xr : Vec Ideal S1x2048x128 .f32) :
    (truncf .bf16 (shapeCast S2048x128 xr shapeCasts_S1x2048x128_S2048x128) bitsLt_bf16_f32 : FVec Ideal S2048x128 .bf16)
      = fun j => xr (ix3 (0 : Fin 1) (j 0) (j 1)) := by
  funext j
  obtain ⟨a, c, rfl⟩ : ∃ a c, j = ix2 a c := ⟨j 0, j 1, eq_ix2 j⟩
  exact shapeCast_1ab_ab_apply xr shapeCasts_S1x2048x128_S2048x128 a c

/-- The first layer's payload is the packed layer of the loaded row. -/
theorem pay12_apply (x1 : Vec Ideal S128x128 .f32) (x2 : Vec Ideal S128 .f32) (x3 x4 : Vec Ideal S128x128 .f32)
    (x5 : Vec Ideal S128 .f32) (xr : Vec Ideal S1x2048x128 .f32) :
    (k0_pay12 (F := Ideal) (iota .tc S2048x128 32 [1] iota_S2048x128_d1_w32) k0_pay1 (k0_pay2 x1) (k0_pay3 x3) (k0_pay4 x4) (k0_pay7 x2) (k0_pay8 x5) xr
        : FVec Ideal S2048x128 .bf16)
      = layerP (fun j => xr (ix3 (0 : Fin 1) (j 0) (j 1))) x1 x2 x3 x4 x5 := by
  funext j
  obtain ⟨a, c, rfl⟩ : ∃ a c, j = ix2 a c := ⟨j 0, j 1, eq_ix2 j⟩
  refine (congrFun (pay12_eq (F := Ideal) (iota .tc S2048x128 32 [1] iota_S2048x128_d1_w32) k0_pay1 (k0_pay2 x1) (k0_pay3 x3) (k0_pay4 x4) (k0_pay7 x2)
    (k0_pay8 x5) xr) (ix2 a c)).trans ?_
  show layerOps (F := Ideal) (iota .tc S2048x128 32 [1] iota_S2048x128_d1_w32) k0_pay1
      (truncf .bf16 (shapeCast S2048x128 xr shapeCasts_S1x2048x128_S2048x128) bitsLt_bf16_f32)
      (k0_pay2 x1) (k0_pay3 x3) (k0_pay4 x4) (k0_pay7 x2) (k0_pay8 x5) (ix2 a c) = _
  refine (layerOps_apply _ _ _ _ _ _ a c).trans ?_
  exact layerP_congr (row_id xr) (pay2_id x1) (pay7_id x2) (pay3_id x3) (pay4_id x4) (pay8_id x5) (ix2 a c)

/-- On the extended reals the stored row, at row m and lane l, is the packed layer applied twice to the loaded row. -/
theorem rowPay_apply (x1 : Vec Ideal S128x128 .f32) (x2 : Vec Ideal S128 .f32) (x3 x4 : Vec Ideal S128x128 .f32)
    (x5 : Vec Ideal S128 .f32) (x6 : Vec Ideal S128x128 .f32) (x7 : Vec Ideal S128 .f32)
    (x8 x9 : Vec Ideal S128x128 .f32) (x10 : Vec Ideal S128 .f32) (xr : Vec Ideal S1x2048x128 .f32)
    (m : Fin 2048) (l : Fin 128) :
    rowPay (F := Ideal) x1 x2 x3 x4 x5 x6 x7 x8 x9 x10 xr (ix3 (0 : Fin 1) m l)
      = layerP (layerP (fun j => xr (ix3 (0 : Fin 1) (j 0) (j 1))) x1 x2 x3 x4 x5) x6 x7 x8 x9 x10 (ix2 m l) := by
  refine (congrFun (rowPay_eq (F := Ideal) x1 x2 x3 x4 x5 x6 x7 x8 x9 x10 xr) (ix3 (0 : Fin 1) m l)).trans ?_
  refine (shapeCast_ab_1ab_apply _ shapeCasts_S2048x128_S1x2048x128 (0 : Fin 1) m l).trans ?_
  refine (layerOps_apply _ _ _ _ _ _ m l).trans ?_
  exact layerP_congr (pay12_apply x1 x2 x3 x4 x5 xr) (pay5_id x6) (pay9_id x7) (pay6_id x8) (pay2_id x9)
    (pay10_id x10) (ix2 m l)

end Cert.KernelRow

end
-- ==== Proof.KernelBlock.lean ====
/-
  What the kernel's body leaves in its output block: row r of the block is the stored row computed from row r of the
  input block. The body fills the block by a loop of four trips, one row each.
-/
import proofs.«117775_j14946486190735_2_alg».proof.Proof.Gen.KernelIdeal.Frame
import proofs.«117775_j14946486190735_2_alg».proof.Proof.KernelRow
import Idealize.ShloMosaic.Lib.Pipeline.Value

set_option maxRecDepth 16384

noncomputable section

namespace Cert.KernelBlock

open Cert.KernelIdeal Cert.KernelIdeal.Gen Cert.KernelRow
open Idealize.ShloMosaic Idealize.ShloMosaic.TcCoe Idealize.ShloMosaic.ValueIdx Idealize.SL.Sem

variable {F : FTy → Type} [FloatOps F]

/-- The output block as one function of the input block and the weight and bias blocks: at row r of the block, row m,
    lane l, the stored row of the input block's row r, at (m, l). -/
def blockOut (x0 : Vec F S4x2048x128 .f32) (x1 : Vec F S128x128 .f32) (x2 : Vec F S128 .f32) (x3 x4 : Vec F S128x128 .f32) (x5 : Vec F S128 .f32) (x6 : Vec F S128x128 .f32) (x7 : Vec F S128 .f32) (x8 x9 : Vec F S128x128 .f32) (x10 : Vec F S128 .f32) : Vec F S4x2048x128 .f32 := fun y =>
  rowPay x1 x2 x3 x4 x5 x6 x7 x8 x9 x10 (fun z => x0 (ix3 (y 0) (z 1) (z 2))) (ix3 (0 : Fin 1) (y 1) (y 2))

/-- A piece written by the trips before the n-th is a piece of one of the trips. -/
theorem mem_pb (𝒱 : Variants) (c : Dev nD) (bd : Option 𝒱.V) (i : grid0.Coords) (arg1 : Memref sig .tc .vmem S4x2048x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S4x2048x128 .f32) (harg12 : arg12.IsWhole) (v0 : IVec S2048x128 32) (v7 : Vec F S128x128 .f32) (v10 : Vec F S128x128 .f32) (v13 : Vec F S128x128 .f32) (v16 : Vec F S128x128 .f32) (v19 : Vec F S128x128 .f32) (v22 : Vec F S128x128 .f32) (v25 : Vec F S128 .f32) (v27 : Vec F S128 .f32) (v29 : Vec F S128 .f32) (v31 : Vec F S128 .f32) (X_arg1 : BufTy.Contents (Elt F) arg1.view.ty) (p : View.Piece (Elt F) S4x2048x128 .f32) :
    ∀ n : ℕ, p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 v0 v7 v10 v13 v16 v19 v22 v25 v27 v29 v31 X_arg1 n → ∃ k, p ∈ tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v7 v10 v13 v16 v19 v22 v25 v27 v29 v31 X_arg1 k
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pb 𝒱 c bd i arg1 harg1 arg2 harg2 arg3 harg3 arg4 harg4 arg5 harg5 arg6 harg6 arg7 harg7 arg8 harg8 arg9 harg9 arg10 harg10 arg11 harg11 arg12 harg12 v0 v7 v10 v13 v16 v19 v22 v25 v27 v29 v31 X_arg1 p n h
    · exact mem_pb 𝒱 c bd i arg1 harg1 arg2 harg2 arg3 harg3 arg4 harg4 arg5 harg5 arg6 harg6 arg7 harg7 arg8 harg8 arg9 harg9 arg10 harg10 arg11 harg11 arg12 harg12 v0 v7 v10 v13 v16 v19 v22 v25 v27 v29 v31 X_arg1 p n h

/-- The block the run's pieces leave is blockOut of the blocks it was called with. -/
theorem out0_eq (c : Dev nD) (i : grid0.Coords) (arg1 : Memref sig .tc .vmem S4x2048x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S4x2048x128 .f32) (harg12 : arg12.IsWhole) (x0 : Vec F S4x2048x128 .f32) (x1 : Vec F S128x128 .f32) (x2 : Vec F S128 .f32) (x3 : Vec F S128x128 .f32) (x4 : Vec F S128x128 .f32) (x5 : Vec F S128 .f32) (x6 : Vec F S128x128 .f32) (x7 : Vec F S128 .f32) (x8 : Vec F S128x128 .f32) (x9 : Vec F S128x128 .f32) (x10 : Vec F S128 .f32) :
    out0_A_11 (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 = blockOut x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  funext y
  refine View.canon_apply_of_pieces (blockOut x0 x1 x2 x3 x4 x5 x6 x7 x8 x9 x10) _ ?_ y (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y)
  intro p hp x
  unfold kernelRun0_A at hp
  dsimp only at hp
  obtain ⟨k, hk⟩ := mem_pb _ _ _ _ _ _ _ _ _ _ _ _ _ _ _ _ _ _ _ _ _ _ _ _ _ _ _ _ _ _ _ _ _ _ _ _ _ _ _ _ p _ hp
  unfold tripL_k0_t1 trip_k0_t1 at hk
  dsimp only at hk
  rw [List.mem_singleton] at hk
  subst hk
  dsimp only
  unfold trip_k0_t1.sl.r trip_k0_t1.sl.r_1 trip_k0_t1.sl.r_2 kernelRun0_A.sl.v0
  have hz2 : (![0, 0] : Fin 2 → Nat) = fun _ => 0 := by funext a; fin_cases a <;> rfl
  have hz1 : (![0] : Fin 1 → Nat) = fun _ => 0 := by funext a; fin_cases a <;> rfl
  simp only [View.readAt_eq_ld, harg1.read_unread, harg2.read_unread, harg3.read_unread, harg4.read_unread,
    harg5.read_unread, harg6.read_unread, harg7.read_unread, harg8.read_unread, harg9.read_unread, harg10.read_unread,
    harg11.read_unread, View.ld_unit_zero (S := S128x128) hz2, View.ld_unit_zero (S := S128) hz1]
  have e0 : k0_off1 k 0 = k.val := by rw [k0_off1_eq k]; rfl
  have e1 : k0_off1 k 1 = 0 := by rw [k0_off1_eq k]; rfl
  have e2 : k0_off1 k 2 = 0 := by rw [k0_off1_eq k]; rfl
  unfold blockOut
  refine congr (congrArg (rowPay x1 x2 x3 x4 x5 x6 x7 x8 x9 x10)
    (funext fun z => congrArg x0 (funext fun a => Fin.ext ?_))) (funext fun a => Fin.ext ?_)
  · have hz : (z 0).val < 1 := (z 0).isLt
    have hx : (x 0).val < 1 := (x 0).isLt
    match a with
    | ⟨0, _⟩ => show k0_off1 k 0 + 1 * (z 0).val = k0_off1 k 0 + 1 * (x 0).val; omega
    | ⟨1, _⟩ => show k0_off1 k 1 + 1 * (z 1).val = (z 1).val; omega
    | ⟨2, _⟩ => show k0_off1 k 2 + 1 * (z 2).val = (z 2).val; omega
  · have hx : (x 0).val < 1 := (x 0).isLt
    match a with
    | ⟨0, _⟩ => show (x 0).val = 0; omega
    | ⟨1, _⟩ => show (x 1).val = k0_off1 k 1 + 1 * (x 1).val; omega
    | ⟨2, _⟩ => show (x 2).val = k0_off1 k 2 + 1 * (x 2).val; omega

end Cert.KernelBlock

end
-- ==== Proof.KernelHost.lean ====
/-
  The arrays the kernel's region is handed, as functions of the arguments: the batch packed two nodes to a row, each
  weight as the block-diagonal diag (W, W), each bias doubled.
-/
import proofs.«117775_j14946486190735_2_alg».proof.Proof.Gen.KernelIdeal.Frame
import proofs.«117775_j14946486190735_2_alg».proof.Proof.SageSpec
import Idealize.ShloMosaic.Lib.Pipeline.Value
import Idealize.ShloMosaic.Lib.StableHlo.Run
import Idealize.ShloMosaic.PureOps.Ideal.Laws

noncomputable section

namespace Cert.KernelHost

open Cert.KernelIdeal Cert.KernelIdeal.Gen Cert.SageSpec
open Idealize.ShloMosaic Idealize.ShloMosaic.TcCoe Idealize.ShloMosaic.ValueIdx Idealize.SL.Sem

/-- The batch packed: row m of sample s holds node 2m in lanes 0..63 and node 2m + 1 in lanes 64..127. -/
def packB (X : Batch) : (⟨3, ![64, 2048, 128]⟩ : Shape).Idx → EReal := fun i =>
  X (ix3 (i 0) ⟨2 * (i 1).val + (i 2).val / 64, by
      have h1 : (i 1).val < 2048 := (i 1).isLt
      have h2 : (i 2).val < 128 := (i 2).isLt
      omega⟩ ⟨(i 2).val % 64, Nat.mod_lt _ (by decide)⟩)

variable (m : (ℓ : Loc nD τ sig) → Buf (Elt Ideal) ℓ)

/-! ## The host operations read index by index -/

/-- A vector of 64 entries written twice in a row, read at lane l, is the vector at l mod 64. -/
theorem concat_self_eq_tile (b : S64.Idx → EReal) (h : Shape.Concatenates [S64, S64] S128 0) :
    concatenate S128 0 [⟨S64, b⟩, ⟨S64, b⟩] h = tile b := by
  funext j
  obtain ⟨l, rfl⟩ : ∃ l, j = ix1 l := ⟨j 0, eq_ix1 j⟩
  have ht : tile b (ix1 l) = b (ix1 ⟨l.val % 64, Nat.mod_lt _ (by decide)⟩) := rfl
  rw [ht]
  by_cases hl : l.val < 64
  · rw [concatenate_pair_apply_left (0 : Fin S128.rank) b b h (ix1 l) rfl (ix1 ⟨l.val, hl⟩)
      (by intro a; match a with | ⟨0, _⟩ => rfl)]
    have e : (⟨l.val, hl⟩ : Fin 64) = ⟨l.val % 64, Nat.mod_lt _ (by decide)⟩ := Fin.ext (Nat.mod_eq_of_lt hl).symm
    rw [e]
  · have hl2 : l.val - 64 < 64 := by have := l.isLt; omega
    rw [concatenate_pair_apply_right (0 : Fin S128.rank) b b h (ix1 l) rfl rfl (ix1 ⟨l.val - 64, hl2⟩)
      (by intro a ha; match a, ha with | ⟨0, _⟩, ha => exact absurd rfl ha)
      (by show (l.val - 64) + 64 = l.val; omega)]
    have e : (⟨l.val - 64, hl2⟩ : Fin 64) = ⟨l.val % 64, Nat.mod_lt _ (by decide)⟩ := Fin.ext (by
      show l.val - 64 = l.val % 64
      have := l.isLt; omega)
    rw [e]

/-- The block matrix [[W, Z], [Z, W]] with Z everywhere zero is diag (W, W). -/
theorem concat_blocks_eq_blk (W Z : S64x64.Idx → EReal) (hZ : ∀ i, Z i = 0)
    (h1 : Shape.Concatenates [S64x64, S64x64] S64x128 1) (h0 : Shape.Concatenates [S64x128, S64x128] S128x128 0) :
    concatenate S128x128 0 [⟨S64x128, concatenate S64x128 1 [⟨S64x64, W⟩, ⟨S64x64, Z⟩] h1⟩,
      ⟨S64x128, concatenate S64x128 1 [⟨S64x64, Z⟩, ⟨S64x64, W⟩] h1⟩] h0 = blk W := by
  funext j
  obtain ⟨k, l, rfl⟩ : ∃ k l, j = ix2 k l := ⟨j 0, j 1, eq_ix2 j⟩
  have hb : blk W (ix2 k l) = if k.val / 64 = l.val / 64 then
      W (ix2 ⟨k.val % 64, Nat.mod_lt _ (by decide)⟩ ⟨l.val % 64, Nat.mod_lt _ (by decide)⟩) else 0 := rfl
  rw [hb]
  have hk128 := k.isLt
  have hl128 := l.isLt
  by_cases hk : k.val < 64
  · -- the upper half: the row (W | Z)
    rw [concatenate_pair_apply_left (0 : Fin S128x128.rank) _ _ h0 (ix2 k l) rfl (ix2 (⟨k.val, hk⟩ : Fin 64) l)
      (by intro a; match a with | ⟨0, _⟩ => rfl | ⟨1, _⟩ => rfl)]
    by_cases hl : l.val < 64
    · rw [concatenate_pair_apply_left (1 : Fin S64x128.rank) W Z h1 (ix2 (⟨k.val, hk⟩ : Fin 64) l) rfl
        (ix2 (⟨k.val, hk⟩ : Fin 64) (⟨l.val, hl⟩ : Fin 64))
        (by intro a; match a with | ⟨0, _⟩ => rfl | ⟨1, _⟩ => rfl)]
      rw [if_pos (by omega)]
      have ek : (⟨k.val, hk⟩ : Fin 64) = ⟨k.val % 64, Nat.mod_lt _ (by decide)⟩ := Fin.ext (Nat.mod_eq_of_lt hk).symm
      have el : (⟨l.val, hl⟩ : Fin 64) = ⟨l.val % 64, Nat.mod_lt _ (by decide)⟩ := Fin.ext (Nat.mod_eq_of_lt hl).symm
      rw [ek, el]
    · have hl2 : l.val - 64 < 64 := by omega
      rw [concatenate_pair_apply_right (1 : Fin S64x128.rank) W Z h1 (ix2 (⟨k.val, hk⟩ : Fin 64) l) rfl rfl
        (ix2 (⟨k.val, hk⟩ : Fin 64) (⟨l.val - 64, hl2⟩ : Fin 64))
        (by intro a ha; match a, ha with | ⟨0, _⟩, _ => rfl | ⟨1, _⟩, ha => exact absurd rfl ha)
        (by show (l.val - 64) + 64 = l.val; omega)]
      rw [hZ, if_neg (by omega)]
  · -- the lower half: the row (Z | W)
    have hk2 : k.val - 64 < 64 := by omega
    rw [concatenate_pair_apply_right (0 : Fin S128x128.rank) _ _ h0 (ix2 k l) rfl rfl (ix2 (⟨k.val - 64, hk2⟩ : Fin 64) l)
      (by intro a ha; match a, ha with | ⟨0, _⟩, ha => exact absurd rfl ha | ⟨1, _⟩, _ => rfl)
      (by show (k.val - 64) + 64 = k.val; omega)]
    by_cases hl : l.val < 64
    · rw [concatenate_pair_apply_left (1 : Fin S64x128.rank) Z W h1 (ix2 (⟨k.val - 64, hk2⟩ : Fin 64) l) rfl
        (ix2 (⟨k.val - 64, hk2⟩ : Fin 64) (⟨l.val, hl⟩ : Fin 64))
        (by intro a; match a with | ⟨0, _⟩ => rfl | ⟨1, _⟩ => rfl)]
      rw [hZ, if_neg (by omega)]
    · have hl2 : l.val - 64 < 64 := by omega
      rw [concatenate_pair_apply_right (1 : Fin S64x128.rank) Z W h1 (ix2 (⟨k.val - 64, hk2⟩ : Fin 64) l) rfl rfl
        (ix2 (⟨k.val - 64, hk2⟩ : Fin 64) (⟨l.val - 64, hl2⟩ : Fin 64))
        (by intro a ha; match a, ha with | ⟨0, _⟩, _ => rfl | ⟨1, _⟩, ha => exact absurd rfl ha)
        (by show (l.val - 64) + 64 = l.val; omega)]
      rw [if_pos (by omega)]
      have ek : (⟨k.val - 64, hk2⟩ : Fin 64) = ⟨k.val % 64, Nat.mod_lt _ (by decide)⟩ := Fin.ext (by
        show k.val - 64 = k.val % 64; omega)
      have el : (⟨l.val - 64, hl2⟩ : Fin 64) = ⟨l.val % 64, Nat.mod_lt _ (by decide)⟩ := Fin.ext (by
        show l.val - 64 = l.val % 64; omega)
      rw [ek, el]

/-- The scalar zero word broadcast to 64 by 64 is zero everywhere. -/
theorem zeros_apply (h : S_.BroadcastsInDim S64x64 ![]) (i : S64x64.Idx) :
    broadcastInDim S64x64 ![] h (constant (F := Ideal) S_ .f32 0x00000000#32) i = (0 : EReal) :=
  Ideal.ofBits_zero_f32

/-- The reshape of the batch to packed rows, index by index. -/
theorem reshape_eq_packB (X : S64x4096x64.Idx → EReal) (h : S64x4096x64.ShapeCasts S64x2048x128) :
    shapeCast S64x2048x128 X h = packB X := by
  funext i
  obtain ⟨s, r, l, rfl⟩ : ∃ s r l, i = ix3 s r l := ⟨i 0, i 1, i 2, eq_ix3 i⟩
  have hr := r.isLt
  have hl := l.isLt
  have hs := s.isLt
  rw [shapeCast_apply X h (ix3 s r l) (ix3 s (⟨2 * r.val + l.val / 64, by omega⟩ : Fin 4096) (⟨l.val % 64, Nat.mod_lt _ (by decide)⟩ : Fin 64))
    (by rw [Shape.rowMajor_val_three, Shape.rowMajor_val_three]
        show (s.val * 4096 + (2 * r.val + l.val / 64)) * 64 + l.val % 64 = (s.val * 2048 + r.val) * 128 + l.val
        omega)]
  rfl

/-- The reshaped input the call is handed: the packed batch. -/
theorem V_main_v0 (c : Dev nD) :
    (V m c main_v0 : S64x2048x128.Idx → EReal) = packB (m ((c : Thread nD τ).loc main_arg0)) := by
  have e : (V m c main_v0 : S64x2048x128.Idx → EReal) =
      shapeCast S64x2048x128 (m ((c : Thread nD τ).loc main_arg0)) shapeCasts_S64x4096x64_S64x2048x128 := by
    show StableHlo.after hostOps0 (fun b => m (c, b)) (Proc.devRef .tc main_v0) = _
    after_results
    rfl
  rw [e]
  exact reshape_eq_packB _ _

/-- The block-diagonal weight the call is handed for main_arg1. -/
theorem V_main_v4 (c : Dev nD) : (V m c main_v4 : S128x128.Idx → EReal) = blk (m ((c : Thread nD τ).loc main_arg1)) := by
  show StableHlo.after hostOps0 (fun b => m (c, b)) (Proc.devRef .tc main_v4) = _
  after_results
  exact concat_blocks_eq_blk _ _ (zeros_apply _) _ _

/-- The block-diagonal weight the call is handed for main_arg3. -/
theorem V_main_v8 (c : Dev nD) : (V m c main_v8 : S128x128.Idx → EReal) = blk (m ((c : Thread nD τ).loc main_arg3)) := by
  show StableHlo.after hostOps0 (fun b => m (c, b)) (Proc.devRef .tc main_v8) = _
  after_results
  exact concat_blocks_eq_blk _ _ (zeros_apply _) _ _

/-- The block-diagonal weight the call is handed for main_arg4. -/
theorem V_main_v12 (c : Dev nD) : (V m c main_v12 : S128x128.Idx → EReal) = blk (m ((c : Thread nD τ).loc main_arg4)) := by
  show StableHlo.after hostOps0 (fun b => m (c, b)) (Proc.devRef .tc main_v12) = _
  after_results
  exact concat_blocks_eq_blk _ _ (zeros_apply _) _ _

/-- The block-diagonal weight the call is handed for main_arg6. -/
theorem V_main_v16 (c : Dev nD) : (V m c main_v16 : S128x128.Idx → EReal) = blk (m ((c : Thread nD τ).loc main_arg6)) := by
  show StableHlo.after hostOps0 (fun b => m (c, b)) (Proc.devRef .tc main_v16) = _
  after_results
  exact concat_blocks_eq_blk _ _ (zeros_apply _) _ _

/-- The block-diagonal weight the call is handed for main_arg8. -/
theorem V_main_v20 (c : Dev nD) : (V m c main_v20 : S128x128.Idx → EReal) = blk (m ((c : Thread nD τ).loc main_arg8)) := by
  show StableHlo.after hostOps0 (fun b => m (c, b)) (Proc.devRef .tc main_v20) = _
  after_results
  exact concat_blocks_eq_blk _ _ (zeros_apply _) _ _

set_option maxHeartbeats 1000000 in
/-- The block-diagonal weight the call is handed for main_arg9. -/
theorem V_main_v24 (c : Dev nD) : (V m c main_v24 : S128x128.Idx → EReal) = blk (m ((c : Thread nD τ).loc main_arg9)) := by
  show StableHlo.after hostOps0 (fun b => m (c, b)) (Proc.devRef .tc main_v24) = _
  after_results
  exact concat_blocks_eq_blk _ _ (zeros_apply _) _ _

/-- The doubled bias the call is handed for main_arg2. -/
theorem V_main_v25 (c : Dev nD) : (V m c main_v25 : S128.Idx → EReal) = tile (m ((c : Thread nD τ).loc main_arg2)) := by
  show StableHlo.after hostOps0 (fun b => m (c, b)) (Proc.devRef .tc main_v25) = _
  after_results
  exact concat_self_eq_tile _ _

/-- The doubled bias the call is handed for main_arg5. -/
theorem V_main_v26 (c : Dev nD) : (V m c main_v26 : S128.Idx → EReal) = tile (m ((c : Thread nD τ).loc main_arg5)) := by
  show StableHlo.after hostOps0 (fun b => m (c, b)) (Proc.devRef .tc main_v26) = _
  after_results
  exact concat_self_eq_tile _ _

/-- The doubled bias the call is handed for main_arg7. -/
theorem V_main_v27 (c : Dev nD) : (V m c main_v27 : S128.Idx → EReal) = tile (m ((c : Thread nD τ).loc main_arg7)) := by
  show StableHlo.after hostOps0 (fun b => m (c, b)) (Proc.devRef .tc main_v27) = _
  after_results
  exact concat_self_eq_tile _ _

/-- The doubled bias the call is handed for main_arg10. -/
theorem V_main_v28 (c : Dev nD) : (V m c main_v28 : S128.Idx → EReal) = tile (m ((c : Thread nD τ).loc main_arg10)) := by
  show StableHlo.after hostOps0 (fun b => m (c, b)) (Proc.devRef .tc main_v28) = _
  after_results
  exact concat_self_eq_tile _ _

end Cert.KernelHost

end
-- ==== Proof.SagePacked.lean ====
/-
  The packed layer with block-diagonal weights is the chain layer: unpacking commutes with one layer.
-/
import proofs.«117775_j14946486190735_2_alg».proof.Proof.SageSpec

noncomputable section

namespace Cert.SageSpec

open Idealize.ShloMosaic Idealize.ShloMosaic.ValueIdx

/-- Rank-2 indices with equal coordinates are equal. -/
theorem ix2_congr {n0 n1 : Nat} {a a' : Fin n0} {b b' : Fin n1} (ha : a = a') (hb : b = b') :
    (ix2 a b : (⟨2, ![n0, n1]⟩ : Shape).Idx) = ix2 a' b' := by
  subst ha; subst hb; rfl

/-- A sum over the 128 lanes of a row is the sum over the low 64 lanes plus the sum over the high 64 lanes. -/
theorem sum_lanes (F : Fin 128 → EReal) :
    ∑ k : Fin 128, F k
      = (∑ f : Fin 64, F ⟨f.val, by have := f.isLt; omega⟩)
        + ∑ f : Fin 64, F ⟨64 + f.val, by have := f.isLt; omega⟩ :=
  Fin.sum_univ_add (a := 64) (b := 64) F

/-- Inside a diagonal block, diag (W, W) reads W at the positions within the block. -/
theorem blk_eq (W : Mat) (k l : Fin 128) (f g : Fin 64) (hkl : k.val / 64 = l.val / 64)
    (hf : k.val % 64 = f.val) (hg : l.val % 64 = g.val) : blk W (ix2 k l) = W (ix2 f g) := by
  show (if k.val / 64 = l.val / 64 then
      W (ix2 ⟨k.val % 64, Nat.mod_lt _ (by decide)⟩ ⟨l.val % 64, Nat.mod_lt _ (by decide)⟩) else 0) = W (ix2 f g)
  rw [if_pos hkl]
  exact congrArg W (ix2_congr (Fin.ext hf) (Fin.ext hg))

/-- Outside the diagonal blocks, diag (W, W) is zero. -/
theorem blk_zero (W : Mat) (k l : Fin 128) (hkl : k.val / 64 ≠ l.val / 64) : blk W (ix2 k l) = 0 := by
  show (if k.val / 64 = l.val / 64 then
      W (ix2 ⟨k.val % 64, Nat.mod_lt _ (by decide)⟩ ⟨l.val % 64, Nat.mod_lt _ (by decide)⟩) else 0) = 0
  rw [if_neg hkl]

/-- A row R against column l = h · 64 + g of diag (W, W): the 64 lanes of the other half meet a zero block, and a
    product with zero is zero for every extended real, so only the lanes h · 64 + f of half h remain, and those
    meet W[f, g]. -/
theorem sum_blk (R : Fin 128 → EReal) (W : Mat) (h : Fin 2) (g : Fin 64) (l : Fin 128)
    (hl : l.val = h.val * 64 + g.val) :
    ∑ k : Fin 128, R k * blk W (ix2 k l)
      = ∑ f : Fin 64, R ⟨h.val * 64 + f.val, by have := h.isLt; have := f.isLt; omega⟩ * W (ix2 f g) := by
  have hh := h.isLt
  have hg := g.isLt
  rw [sum_lanes]
  rcases (by omega : h.val = 0 ∨ h.val = 1) with h0 | h1
  · have hz : (∑ f : Fin 64, R ⟨64 + f.val, by have := f.isLt; omega⟩
        * blk W (ix2 ⟨64 + f.val, by have := f.isLt; omega⟩ l)) = 0 :=
      Finset.sum_eq_zero (fun f _ => by
        have hf := f.isLt
        rw [blk_zero W _ l (by show (64 + f.val) / 64 ≠ l.val / 64; omega), mul_zero])
    rw [hz, add_zero]
    refine Finset.sum_congr rfl (fun f _ => ?_)
    have hf := f.isLt
    rw [blk_eq W _ l f g (by show f.val / 64 = l.val / 64; omega) (by show f.val % 64 = f.val; omega) (by omega)]
    exact congrArg (fun k => R k * W (ix2 f g)) (Fin.ext (by show f.val = h.val * 64 + f.val; omega))
  · have hz : (∑ f : Fin 64, R ⟨f.val, by have := f.isLt; omega⟩
        * blk W (ix2 ⟨f.val, by have := f.isLt; omega⟩ l)) = 0 :=
      Finset.sum_eq_zero (fun f _ => by
        have hf := f.isLt
        rw [blk_zero W _ l (by show f.val / 64 ≠ l.val / 64; omega), mul_zero])
    rw [hz, zero_add]
    refine Finset.sum_congr rfl (fun f _ => ?_)
    have hf := f.isLt
    rw [blk_eq W _ l f g (by show (64 + f.val) / 64 = l.val / 64; omega)
      (by show (64 + f.val) % 64 = f.val; omega) (by omega)]
    exact congrArg (fun k => R k * W (ix2 f g)) (Fin.ext (by show 64 + f.val = h.val * 64 + f.val; omega))

/-- Node n lives in row n / 2, half n % 2. Row n / 2 against column (n % 2) · 64 + g of diag (W, W) is node n
    against column g of W. -/
theorem linP_blk (P : Packed) (W : Mat) (n : Fin 4096) (g : Fin 64) (m : Fin 2048) (l : Fin 128)
    (hm : m.val = n.val / 2) (hl : l.val = n.val % 2 * 64 + g.val) :
    linP P (blk W) m l = lin (unpack P) W n g := by
  have hn := n.isLt
  show ∑ k : Fin 128, P (ix2 m k) * blk W (ix2 k l) = ∑ f : Fin 64, unpack P (ix2 n f) * W (ix2 f g)
  rw [sum_blk (fun k => P (ix2 m k)) W ⟨n.val % 2, Nat.mod_lt _ (by decide)⟩ g l hl]
  refine Finset.sum_congr rfl (fun f _ => ?_)
  exact congrArg (fun a => P a * W (ix2 f g)) (ix2_congr (Fin.ext hm) rfl)

/-- The packed message at row n / 2, lane (n % 2) · 64 + g is node n's message at feature g: the doubled bias
    (b, b) at that lane is b[g]. -/
theorem msgP_blk (P : Packed) (Wp : Mat) (bp : Bias) (n : Fin 4096) (g : Fin 64) (m : Fin 2048) (l : Fin 128)
    (hm : m.val = n.val / 2) (hl : l.val = n.val % 2 * 64 + g.val) :
    msgP P (blk Wp) (tile bp) m l = msg (unpack P) Wp bp n g := by
  have hg := g.isLt
  show max (linP P (blk Wp) m l + tile bp (ix1 l)) 0 = max (lin (unpack P) Wp n g + bp (ix1 g)) 0
  rw [linP_blk P Wp n g m l hm hl]
  have hb : tile bp (ix1 l) = bp (ix1 g) :=
    congrArg (fun a => bp (ix1 a)) (Fin.ext (by show l.val % 64 = g.val; omega))
  rw [hb]

/-- The packed pooled value at row n / 2, lane (n % 2) · 64 + f is what node n pools at feature f. For n = 0 both are
    zero. For even n > 0 the low half reads the row above at lane f + 64, which is node n - 1 (an odd node, in
    the high half of row n / 2 - 1). For odd n the high half reads its own row at lane f, which is node n - 1
    (an even node, in the low half of the same row). -/
theorem pooledP_blk (P : Packed) (Wp : Mat) (bp : Bias) (n : Fin 4096) (f : Fin 64) (m : Fin 2048) (l : Fin 128)
    (hm : m.val = n.val / 2) (hl : l.val = n.val % 2 * 64 + f.val) :
    pooledP P (blk Wp) (tile bp) m l = pooled (unpack P) Wp bp n f := by
  have hn := n.isLt
  have hf := f.isLt
  unfold pooledP pooled
  by_cases h0 : n.val = 0
  · rw [if_pos h0, if_pos (by omega)]
  · rw [if_neg h0]
    by_cases hlo : l.val < 64
    · rw [if_neg (by omega), if_pos hlo]
      refine msgP_blk P Wp bp _ f _ _ ?_ ?_
      · show (m.val + 2048 - 1) % 2048 = (n.val - 1) / 2
        omega
      · show (l.val + 128 - 64) % 128 = (n.val - 1) % 2 * 64 + f.val
        omega
    · rw [if_neg (by omega), if_neg hlo]
      refine msgP_blk P Wp bp _ f _ _ ?_ ?_
      · show m.val = (n.val - 1) / 2
        omega
      · show (l.val + 128 - 64) % 128 = (n.val - 1) % 2 * 64 + f.val
        omega

/-- Unpacking a packed layer taken with the block-diagonal weights diag (W, W) and the doubled biases (b, b) gives
    the chain layer of the unpacked sample. -/
theorem unpack_layerP (P : Packed) (Wp : Mat) (bp : Bias) (Ws Wn : Mat) (b : Bias) :
    unpack (layerP P (blk Wp) (tile bp) (blk Ws) (blk Wn) (tile b)) = layer (unpack P) Wp bp Ws Wn b := by
  funext j
  obtain ⟨n, g, rfl⟩ : ∃ n g, j = ix2 n g := ⟨j 0, j 1, eq_ix2 j⟩
  have hn := n.isLt
  have hg := g.isLt
  -- node n at feature g sits in row n / 2 at lane (n % 2) · 64 + g
  have hm2 : n.val / 2 < 2048 := by omega
  have hl2 : n.val % 2 * 64 + g.val < 128 := by omega
  show (linP P (blk Ws) ⟨n.val / 2, hm2⟩ ⟨n.val % 2 * 64 + g.val, hl2⟩
        + ∑ k : Fin 128, pooledP P (blk Wp) (tile bp) ⟨n.val / 2, hm2⟩ k
            * blk Wn (ix2 k ⟨n.val % 2 * 64 + g.val, hl2⟩))
        + tile b (ix1 ⟨n.val % 2 * 64 + g.val, hl2⟩)
      = (lin (unpack P) Ws n g + ∑ f : Fin 64, pooled (unpack P) Wp bp n f * Wn (ix2 f g)) + b (ix1 g)
  rw [linP_blk P Ws n g ⟨n.val / 2, hm2⟩ ⟨n.val % 2 * 64 + g.val, hl2⟩ rfl rfl]
  rw [sum_blk (fun k => pooledP P (blk Wp) (tile bp) ⟨n.val / 2, hm2⟩ k) Wn ⟨n.val % 2, Nat.mod_lt _ (by decide)⟩ g
    ⟨n.val % 2 * 64 + g.val, hl2⟩ rfl]
  have hp : (∑ f : Fin 64, pooledP P (blk Wp) (tile bp) ⟨n.val / 2, hm2⟩
        ⟨n.val % 2 * 64 + f.val, by have := f.isLt; omega⟩ * Wn (ix2 f g))
      = ∑ f : Fin 64, pooled (unpack P) Wp bp n f * Wn (ix2 f g) :=
    Finset.sum_congr rfl (fun f _ => by rw [pooledP_blk P Wp bp n f _ _ rfl rfl])
  have hb : tile b (ix1 ⟨n.val % 2 * 64 + g.val, hl2⟩) = b (ix1 g) :=
    congrArg (fun a => b (ix1 a)) (Fin.ext (by show (n.val % 2 * 64 + g.val) % 64 = g.val; omega))
  rw [hb]
  exact congrArg (fun s => (lin (unpack P) Ws n g + s) + b (ix1 g)) hp

end Cert.SageSpec

end
-- ==== Proof.SageBridge.lean ====
/-
  From packed rows back to the batch: two packed layers over a packed sample, read where node n's features sit, are
  the two-layer map of the batch at that node.
-/
import proofs.«117775_j14946486190735_2_alg».proof.Proof.SagePacked

noncomputable section

namespace Cert.SageSpec

open Idealize.ShloMosaic Idealize.ShloMosaic.ValueIdx

/-- Sample s of the batch packed two nodes to a row: row m holds node 2m in lanes 0..63, node 2m + 1 in lanes 64..127. -/
def packedRow (X : Batch) (s : Fin 64) : Packed := fun j =>
  X (ix3 s ⟨2 * (j 0).val + (j 1).val / 64, by have := idx2_lt0 j; have := idx2_lt1 j; omega⟩
    ⟨(j 1).val % 64, Nat.mod_lt _ (by decide)⟩)

/-- Rank-3 indices with equal coordinates are equal. -/
theorem ix3_congr {n0 n1 n2 : Nat} {a a' : Fin n0} {b b' : Fin n1} {c c' : Fin n2} (ha : a = a') (hb : b = b')
    (hc : c = c') : (ix3 a b c : (⟨3, ![n0, n1, n2]⟩ : Shape).Idx) = ix3 a' b' c' := by
  subst ha; subst hb; subst hc; rfl

/-- Unpacking the packed sample gives the sample back. -/
theorem unpack_packedRow (X : Batch) (s : Fin 64) : unpack (packedRow X s) = row X s := by
  funext j
  obtain ⟨n, g, rfl⟩ : ∃ n g, j = ix2 n g := ⟨j 0, j 1, eq_ix2 j⟩
  have hn := n.isLt
  have hg := g.isLt
  -- node n at feature g is read at row n / 2, lane (n % 2) · 64 + g; that row and lane hold node
  -- 2 (n / 2) + ((n % 2) · 64 + g) / 64 = n at feature ((n % 2) · 64 + g) % 64 = g
  show X (ix3 s ⟨2 * (n.val / 2) + (n.val % 2 * 64 + g.val) / 64, _⟩ ⟨(n.val % 2 * 64 + g.val) % 64, _⟩)
    = X (ix3 s n g)
  exact congrArg X (ix3_congr rfl (Fin.ext (by show 2 * (n.val / 2) + (n.val % 2 * 64 + g.val) / 64 = n.val; omega))
    (Fin.ext (by show (n.val % 2 * 64 + g.val) % 64 = g.val; omega)))

/-- Two packed layers over the packed sample s, with the block-diagonal weights and doubled biases, read at row n / 2
    and lane (n % 2) · 64 + g, are the two-layer map of the batch at sample s, node n, feature g. -/
theorem bridge (X : Batch) (Wp1 : Mat) (bp1 : Bias) (Ws1 Wn1 : Mat) (b1 : Bias) (Wp2 : Mat) (bp2 : Bias)
    (Ws2 Wn2 : Mat) (b2 : Bias) (s : Fin 64) (n : Fin 4096) (g : Fin 64) :
    layerP (layerP (packedRow X s) (blk Wp1) (tile bp1) (blk Ws1) (blk Wn1) (tile b1))
        (blk Wp2) (tile bp2) (blk Ws2) (blk Wn2) (tile b2)
        (ix2 ⟨n.val / 2, by have := n.isLt; omega⟩ ⟨n.val % 2 * 64 + g.val, by have := g.isLt; omega⟩)
      = sage2 X Wp1 bp1 Ws1 Wn1 b1 Wp2 bp2 Ws2 Wn2 b2 (ix3 s n g) := by
  -- the left side is the unpacked result at node n, feature g, by the definition of unpacking
  have hL : layerP (layerP (packedRow X s) (blk Wp1) (tile bp1) (blk Ws1) (blk Wn1) (tile b1))
        (blk Wp2) (tile bp2) (blk Ws2) (blk Wn2) (tile b2)
        (ix2 ⟨n.val / 2, by have := n.isLt; omega⟩ ⟨n.val % 2 * 64 + g.val, by have := g.isLt; omega⟩)
      = unpack (layerP (layerP (packedRow X s) (blk Wp1) (tile bp1) (blk Ws1) (blk Wn1) (tile b1))
        (blk Wp2) (tile bp2) (blk Ws2) (blk Wn2) (tile b2)) (ix2 n g) := rfl
  -- unpacking commutes with each packed layer, and the unpacked packed sample is the sample
  rw [hL, unpack_layerP, unpack_layerP, unpack_packedRow]
  -- the right side is the second layer on sample s of the first layer's batch, which is the first layer of sample s
  show _ = layer (row (layerB X Wp1 bp1 Ws1 Wn1 b1) s) Wp2 bp2 Ws2 Wn2 b2 (ix2 n g)
  rw [row_layerB]

end Cert.SageSpec

end
-- ==== Proof.KernelFinal.lean ====
/-
  From the kernel's blocks to its result: what each grid point writes back is a block of one whole-array function of the
  arguments, the blocks cover the array, and the reshape after the call reads it back node by node.
-/
import proofs.«117775_j14946486190735_2_alg».proof.Proof.KernelBlock
import proofs.«117775_j14946486190735_2_alg».proof.Proof.KernelHost
import proofs.«117775_j14946486190735_2_alg».proof.Proof.SageBridge
import Idealize.ShloMosaic.Lib.Pipeline.Value
import Idealize.ShloMosaic.Lib.StableHlo.Run

set_option maxRecDepth 16384

noncomputable section

namespace Cert.KernelFinal

open Cert.KernelIdeal Cert.KernelIdeal.Gen Cert.KernelRow Cert.KernelBlock Cert.KernelHost Cert.SageSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps, decided over the grid -/

/-- The input's and the output's blocks move together along the samples: point t holds samples 4t .. 4t + 3, whole. -/
theorem idx_io : ∀ t : Fin cfg0.N, win0_0.index t (0 : Fin 3) = t.val ∧ win0_0.index t (1 : Fin 3) = 0
    ∧ win0_0.index t (2 : Fin 3) = 0 ∧ win0_11.index t (0 : Fin 3) = t.val ∧ win0_11.index t (1 : Fin 3) = 0
    ∧ win0_11.index t (2 : Fin 3) = 0 :=
  (by decide +kernel : ∀ t : Fin grid0.N, _)

theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 1) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 1) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 1) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 1) = 0 :=
  (by decide +kernel : ∀ t : Fin grid0.N, _)

/-! ## The weights' and biases' blocks -/

/-- Window 1 never moves: its block at every point is its whole array. -/
theorem iblk_1 (c : Dev nD) (t : Fin cfg0.N) : (iblk m c 1 t : S128x128.Idx → EReal) = V m c main_v4 := by
  funext y
  show V m c main_v4 (((cfg0.win 1).blk t).view.emb y) = V m c main_v4 y
  refine congrArg (V m c main_v4) (funext fun a => Fin.ext ?_)
  obtain ⟨e0, e1⟩ := idx_1 t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2 never moves: its block at every point is its whole array. -/
theorem iblk_2 (c : Dev nD) (t : Fin cfg0.N) : (iblk m c 2 t : S128.Idx → EReal) = V m c main_v25 := by
  funext y
  show V m c main_v25 (((cfg0.win 2).blk t).view.emb y) = V m c main_v25 y
  refine congrArg (V m c main_v25) (funext fun a => Fin.ext ?_)
  have e0 := idx_2 t
  match a with
  | ⟨0, _⟩ => show win0_2.index t (0 : Fin 1) * 128 + 1 * (y 0).val = (y 0).val; omega

/-- Window 3 never moves: its block at every point is its whole array. -/
theorem iblk_3 (c : Dev nD) (t : Fin cfg0.N) : (iblk m c 3 t : S128x128.Idx → EReal) = V m c main_v8 := by
  funext y
  show V m c main_v8 (((cfg0.win 3).blk t).view.emb y) = V m c main_v8 y
  refine congrArg (V m c main_v8) (funext fun a => Fin.ext ?_)
  obtain ⟨e0, e1⟩ := idx_3 t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 never moves: its block at every point is its whole array. -/
theorem iblk_4 (c : Dev nD) (t : Fin cfg0.N) : (iblk m c 4 t : S128x128.Idx → EReal) = V m c main_v12 := by
  funext y
  show V m c main_v12 (((cfg0.win 4).blk t).view.emb y) = V m c main_v12 y
  refine congrArg (V m c main_v12) (funext fun a => Fin.ext ?_)
  obtain ⟨e0, e1⟩ := idx_4 t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 never moves: its block at every point is its whole array. -/
theorem iblk_5 (c : Dev nD) (t : Fin cfg0.N) : (iblk m c 5 t : S128.Idx → EReal) = V m c main_v26 := by
  funext y
  show V m c main_v26 (((cfg0.win 5).blk t).view.emb y) = V m c main_v26 y
  refine congrArg (V m c main_v26) (funext fun a => Fin.ext ?_)
  have e0 := idx_5 t
  match a with
  | ⟨0, _⟩ => show win0_5.index t (0 : Fin 1) * 128 + 1 * (y 0).val = (y 0).val; omega

/-- Window 6 never moves: its block at every point is its whole array. -/
theorem iblk_6 (c : Dev nD) (t : Fin cfg0.N) : (iblk m c 6 t : S128x128.Idx → EReal) = V m c main_v16 := by
  funext y
  show V m c main_v16 (((cfg0.win 6).blk t).view.emb y) = V m c main_v16 y
  refine congrArg (V m c main_v16) (funext fun a => Fin.ext ?_)
  obtain ⟨e0, e1⟩ := idx_6 t
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7 never moves: its block at every point is its whole array. -/
theorem iblk_7 (c : Dev nD) (t : Fin cfg0.N) : (iblk m c 7 t : S128.Idx → EReal) = V m c main_v27 := by
  funext y
  show V m c main_v27 (((cfg0.win 7).blk t).view.emb y) = V m c main_v27 y
  refine congrArg (V m c main_v27) (funext fun a => Fin.ext ?_)
  have e0 := idx_7 t
  match a with
  | ⟨0, _⟩ => show win0_7.index t (0 : Fin 1) * 128 + 1 * (y 0).val = (y 0).val; omega

/-- Window 8 never moves: its block at every point is its whole array. -/
theorem iblk_8 (c : Dev nD) (t : Fin cfg0.N) : (iblk m c 8 t : S128x128.Idx → EReal) = V m c main_v20 := by
  funext y
  show V m c main_v20 (((cfg0.win 8).blk t).view.emb y) = V m c main_v20 y
  refine congrArg (V m c main_v20) (funext fun a => Fin.ext ?_)
  obtain ⟨e0, e1⟩ := idx_8 t
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9 never moves: its block at every point is its whole array. -/
theorem iblk_9 (c : Dev nD) (t : Fin cfg0.N) : (iblk m c 9 t : S128x128.Idx → EReal) = V m c main_v24 := by
  funext y
  show V m c main_v24 (((cfg0.win 9).blk t).view.emb y) = V m c main_v24 y
  refine congrArg (V m c main_v24) (funext fun a => Fin.ext ?_)
  obtain ⟨e0, e1⟩ := idx_9 t
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10 never moves: its block at every point is its whole array. -/
theorem iblk_10 (c : Dev nD) (t : Fin cfg0.N) : (iblk m c 10 t : S128.Idx → EReal) = V m c main_v28 := by
  funext y
  show V m c main_v28 (((cfg0.win 10).blk t).view.emb y) = V m c main_v28 y
  refine congrArg (V m c main_v28) (funext fun a => Fin.ext ?_)
  have e0 := idx_10 t
  match a with
  | ⟨0, _⟩ => show win0_10.index t (0 : Fin 1) * 128 + 1 * (y 0).val = (y 0).val; omega

/-! ## What a grid point writes back -/

/-- The packed result as one function of the arguments: for sample s, row m, lane l, two packed layers of the packed
    sample, with the block-diagonal weights and the doubled biases. -/
def Gout (X : Batch) (Wp1 : Mat) (bp1 : Bias) (Ws1 Wn1 : Mat) (b1 : Bias) (Wp2 : Mat) (bp2 : Bias) (Ws2 Wn2 : Mat)
    (b2 : Bias) : S64x2048x128.Idx → EReal := fun i =>
  layerP (layerP (packedRow X (i 0)) (blk Wp1) (tile bp1) (blk Ws1) (blk Wn1) (tile b1))
    (blk Wp2) (tile bp2) (blk Ws2) (blk Wn2) (tile b2) (ix2 (i 1) (i 2))

/-- What point t writes back is block t of Gout of the arguments: rows 4t .. 4t + 3 of the packed result are the
    stored rows of samples 4t .. 4t + 3. -/
theorem flushed_eq (c : Dev nD) (t : Fin cfg0.N) :
    (dats m 0 c).flushed 11 t = ((cfg0.win 11).blk t).view.read (Elt Ideal) (Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 11).cut (grid0.coords t) ((dats m 0 c).after 11 t) = _
  rw [after0_11]
  unfold outsAt0
  rw [out0_eq]
  rw [iblk_1, iblk_2, iblk_3, iblk_4, iblk_5, iblk_6, iblk_7, iblk_8, iblk_9, iblk_10]
  rw [V_main_v4, V_main_v25, V_main_v8, V_main_v12, V_main_v26, V_main_v16, V_main_v27, V_main_v20, V_main_v24,
    V_main_v28]
  funext j
  show blockOut (iblk m c 0 t) (blk (m ((c : Thread nD τ).loc main_arg1))) (tile (m ((c : Thread nD τ).loc main_arg2))) (blk (m ((c : Thread nD τ).loc main_arg3))) (blk (m ((c : Thread nD τ).loc main_arg4))) (tile (m ((c : Thread nD τ).loc main_arg5))) (blk (m ((c : Thread nD τ).loc main_arg6))) (tile (m ((c : Thread nD τ).loc main_arg7))) (blk (m ((c : Thread nD τ).loc main_arg8))) (blk (m ((c : Thread nD τ).loc main_arg9))) (tile (m ((c : Thread nD τ).loc main_arg10))) j
    = Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb j)
  unfold blockOut Gout
  refine (rowPay_apply _ _ _ _ _ _ _ _ _ _ _ (j 1) (j 2)).trans ?_
  obtain ⟨a0, a1, a2, b0, b1, b2⟩ := idx_io t
  refine congr (congrArg (fun P : Packed => layerP (layerP P (blk (m ((c : Thread nD τ).loc main_arg1))) (tile (m ((c : Thread nD τ).loc main_arg2))) (blk (m ((c : Thread nD τ).loc main_arg3))) (blk (m ((c : Thread nD τ).loc main_arg4))) (tile (m ((c : Thread nD τ).loc main_arg5)))) (blk (m ((c : Thread nD τ).loc main_arg6))) (tile (m ((c : Thread nD τ).loc main_arg7))) (blk (m ((c : Thread nD τ).loc main_arg8))) (blk (m ((c : Thread nD τ).loc main_arg9))) (tile (m ((c : Thread nD τ).loc main_arg10)))) ?_) ?_
  · funext q
    show V m c main_v0 (((cfg0.win 0).blk t).view.emb (ix3 (j 0) (q 0) (q 1))) = _
    rw [V_main_v0]
    unfold packB packedRow
    refine congrArg (m ((c : Thread nD τ).loc main_arg0)) (funext fun a => Fin.ext ?_)
    match a with
    | ⟨0, _⟩ =>
      show win0_0.index t (0 : Fin 3) * 4 + 1 * (j 0).val = win0_11.index t (0 : Fin 3) * 4 + 1 * (j 0).val
      omega
    | ⟨1, _⟩ =>
      show 2 * (win0_0.index t (1 : Fin 3) * 2048 + 1 * (q 0).val) + (win0_0.index t (2 : Fin 3) * 128 + 1 * (q 1).val) / 64
        = 2 * (q 0).val + (q 1).val / 64
      rw [a1, a2]; omega
    | ⟨2, _⟩ =>
      show (win0_0.index t (2 : Fin 3) * 128 + 1 * (q 1).val) % 64 = (q 1).val % 64
      rw [a2]; omega
  · funext a
    apply Fin.ext
    match a with
    | ⟨0, _⟩ => show (j 1).val = win0_11.index t (1 : Fin 3) * 2048 + 1 * (j 1).val; omega
    | ⟨1, _⟩ => show (j 2).val = win0_11.index t (2 : Fin 3) * 128 + 1 * (j 2).val; omega

/-! ## The blocks cover the array -/

/-- An index of the packed result is in point t's block iff each coordinate is in the block's range on its axis. -/
theorem mem_blk (t : Fin cfg0.N) (i : S64x2048x128.Idx) :
    i ∈ ((cfg0.win 11).blk t).view.set ↔ ∀ a : Fin 3, win0_11.index t a * S4x2048x128.size a ≤ (i a).val
      ∧ (i a).val < win0_11.index t a * S4x2048x128.size a + S4x2048x128.size a := by
  show i ∈ ((View.whole main_v29).slice (win0_11.rect t)).set ↔ _
  rw [View.set_slice_whole, Rect.mem_set_unit]
  exact Iff.rfl

/-- Sample s is written back by point s / 4: every index of the packed result is in some point's block. -/
theorem cover (c : Dev nD) (i : ((cfg0.win 11).arr.view.loc (c.tc : Thread nD τ)).2.ty.Idx) :
    ∃ t : Fin cfg0.N, (cfg0.win 11).flush t = true ∧ i ∈ ((cfg0.win 11).blk t).view.set := by
  have h0 : (i 0).val < 64 := (i 0).isLt
  have h1 : (i 1).val < 2048 := (i 1).isLt
  have h2 : (i 2).val < 128 := (i 2).isLt
  have ht : (i 0).val / 4 < cfg0.N := by show (i 0).val / 4 < grid0.N; rw [N_0]; omega
  obtain ⟨-, -, -, b0, b1, b2⟩ := idx_io ⟨(i 0).val / 4, ht⟩
  refine ⟨⟨(i 0).val / 4, ht⟩, flush0_11 _, ?_⟩
  rw [mem_blk]
  intro a
  match a with
  | ⟨0, _⟩ =>
    show win0_11.index ⟨(i 0).val / 4, ht⟩ (0 : Fin 3) * 4 ≤ (i 0).val
      ∧ (i 0).val < win0_11.index ⟨(i 0).val / 4, ht⟩ (0 : Fin 3) * 4 + 4
    rw [b0]; show (i 0).val / 4 * 4 ≤ (i 0).val ∧ (i 0).val < (i 0).val / 4 * 4 + 4; omega
  | ⟨1, _⟩ =>
    show win0_11.index ⟨(i 0).val / 4, ht⟩ (1 : Fin 3) * 2048 ≤ (i 1).val
      ∧ (i 1).val < win0_11.index ⟨(i 0).val / 4, ht⟩ (1 : Fin 3) * 2048 + 2048
    rw [b1]; omega
  | ⟨2, _⟩ =>
    show win0_11.index ⟨(i 0).val / 4, ht⟩ (2 : Fin 3) * 128 ≤ (i 2).val
      ∧ (i 2).val < win0_11.index ⟨(i 0).val / 4, ht⟩ (2 : Fin 3) * 128 + 128
    rw [b2]; omega

/-- The packed result array after the run is Gout of the arguments. -/
theorem final (c : Dev nD) : (dats m 0 c).arrAt 11 cfg0.N = Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 (Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed_eq m c t) (cover c)

/-! ## The reshape after the call -/

/-- The packed result read back node by node: node n of sample s sits in row n / 2 at lanes (n % 2) · 64 onwards. -/
theorem reshape_back (G : S64x2048x128.Idx → EReal) (s : Fin 64) (n : Fin 4096) (g : Fin 64) :
    shapeCast S64x4096x64 G shapeCasts_S64x2048x128_S64x4096x64 (ix3 s n g)
      = G (ix3 s ⟨n.val / 2, by have := n.isLt; omega⟩ ⟨n.val % 2 * 64 + g.val, by have := g.isLt; omega⟩) :=
  shapeCast_apply G _ _ _ (by
    rw [Shape.rowMajor_val_three, Shape.rowMajor_val_three]
    show (s.val * 2048 + n.val / 2) * 128 + (n.val % 2 * 64 + g.val) = (s.val * 4096 + n.val) * 64 + g.val
    omega)

/-- The program's result, after the reshape that follows the call, is the two-layer map of the arguments. -/
theorem tail_v30 (c : Dev nD) :
    Pipeline.afterTail₀ cfgs (dats m) 0 (V0 m) [hostOps1] c main_v30 = sage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v30) = _
  after_results
  have hW : ((Pipeline.withArrays spec0 c (V0 m c) (fun w => (dats m 0 c).arrAt w cfg0.N) (Proc.devRef .tc main_v29)) : S64x2048x128.Idx → EReal)
      = Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
    (Pipeline.withArrays_arr spec0 launch0.win.arr_inj c _ _ 11).trans (final m c)
  funext i
  obtain ⟨s, n, g, rfl⟩ : ∃ (s : Fin 64) (n : Fin 4096) (g : Fin 64), i = ix3 s n g := ⟨i 0, i 1, i 2, eq_ix3 i⟩
  show shapeCast S64x4096x64 (Pipeline.withArrays spec0 c (V0 m c) (fun w => (dats m 0 c).arrAt w cfg0.N) (Proc.devRef .tc main_v29)) shapeCasts_S64x2048x128_S64x4096x64 (ix3 s n g) = _
  refine (congrArg (fun G : S64x2048x128.Idx → EReal =>
    shapeCast S64x4096x64 G shapeCasts_S64x2048x128_S64x4096x64 (ix3 s n g)) hW).trans ?_
  refine (reshape_back _ s n g).trans ?_
  exact bridge _ _ _ _ _ _ _ _ _ _ _ s n g

/-! ## The run -/

/-- Every weakly fair execution of the idealized kernel ends with its result at the two-layer map of its arguments, the
    arguments unchanged. -/
theorem run : θ_run defs (onTc (τ := τ) (main (F := Ideal))) ⟨m, fun _ => 0, ρ⟩ (fun r => ∀ c : Dev nD,
      r.2.mem ((c.tc : Thread nD τ).loc main_v30) = sage2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      ((h c).2 main_v30 (Pipeline.mem_restRefs_of main_v30 (by decide) (by decide))).trans (tail_v30 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelFinal

end
-- ==== Proof.lean ====
/-
  A two-layer pooled aggregator over chain graphs, computed two ways, gives one result on the extended reals.

  Each of the 64 samples is a chain of 4096 nodes with 64 features; node n's only in-neighbour is node n - 1. One layer
  returns x[n] · Ws + pooled[n] · Wn + b, where pooled[n] is the neighbour's message max (x[n-1] · Wp + bp, 0) and is
  zero for node 0 (Proof/SageSpec.lean). The reference computes this over the whole batch: a slice, three products, a
  zero row put in front of the messages (Proof/RefSage.lean). The kernel packs nodes 2m and 2m + 1 into one 128-lane row,
  replaces every weight W by the block-diagonal diag (W, W) and every bias b by (b, b), finds the neighbour's message by
  swapping the halves of each row and taking the low half from the row above, and walks the batch four samples per grid
  point, one sample per trip of an inner loop. Three facts join the two:
    * against diag (W, W) the 128-term sum of a packed row keeps the 64 terms of its own half, the others being products
      with zero, which vanish for every extended real, so unpacking commutes with a layer (Proof/SagePacked.lean,
      Proof/SageBridge.lean); no input needs to be finite for this, and the precondition is not used;
    * the row a trip stores is two packed layers of the row it loaded (Proof/KernelRow.lean), the block a grid point
      leaves is those rows (Proof/KernelBlock.lean), and the arrays the call is handed are the packed batch, the
      block-diagonal weights and the doubled biases (Proof/KernelHost.lean);
    * the blocks of the sixteen grid points cover the packed result, and the reshape after the call reads it back node
      by node (Proof/KernelFinal.lean).
  The three frames are the generated runs; the idealization rewrote no operation, so there is nothing to preserve.
-/
import proofs.«117775_j14946486190735_2_alg».proof.Defs
import proofs.«117775_j14946486190735_2_alg».proof.Proof.Gen.Kernel
import proofs.«117775_j14946486190735_2_alg».proof.Proof.Gen.Kernel.Skeleton
import proofs.«117775_j14946486190735_2_alg».proof.Proof.Gen.Kernel.Loops
import proofs.«117775_j14946486190735_2_alg».proof.Proof.Gen.Kernel.Launch
import proofs.«117775_j14946486190735_2_alg».proof.Proof.Gen.Kernel.Points
import proofs.«117775_j14946486190735_2_alg».proof.Proof.Gen.Kernel.Frame
import proofs.«117775_j14946486190735_2_alg».proof.Proof.Gen.KernelIdeal
import proofs.«117775_j14946486190735_2_alg».proof.Proof.Gen.KernelIdeal.Skeleton
import proofs.«117775_j14946486190735_2_alg».proof.Proof.Gen.KernelIdeal.Loops
import proofs.«117775_j14946486190735_2_alg».proof.Proof.Gen.KernelIdeal.Launch
import proofs.«117775_j14946486190735_2_alg».proof.Proof.Gen.KernelIdeal.Points
import proofs.«117775_j14946486190735_2_alg».proof.Proof.Gen.KernelIdeal.Frame
import proofs.«117775_j14946486190735_2_alg».proof.Proof.Gen.ReferenceIdeal
import proofs.«117775_j14946486190735_2_alg».proof.Proof.Gen.ReferenceIdeal.Run
import proofs.«117775_j14946486190735_2_alg».proof.Proof.Gen.ReferenceIdeal.Read
import proofs.«117775_j14946486190735_2_alg».proof.Proof.Gen.Pre_finite_inputs
import proofs.«117775_j14946486190735_2_alg».proof.Proof.RefSage
import proofs.«117775_j14946486190735_2_alg».proof.Proof.KernelFinal
import Idealize.ShloMosaic.Adequacy
import Idealize.ShloMosaic.Init

noncomputable section

namespace Cert.Proof

open Idealize.ShloMosaic Idealize.SL.Sem Cert.SageSpec

/-- The word-level kernel runs and leaves its arguments as they were: the generated run. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference runs and leaves its arguments as they were: its generated run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the two-layer map of the arguments: the kernel by
    its blocks, the reference by its stages. -/
theorem algebraic : Cert.algebraic_KernelIdeal_ReferenceIdeal := by
  intro m ρ m' ρ' _ hagree
  refine ⟨fun c => sage2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelFinal.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq (F := Ideal) _ _ _ _ _ _ _ _ _ _ _).trans ?_
  refine (Cert.RefSage.ref_eq _ _ _ _ _ _ _ _ _ _ _).trans ?_
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
